-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v8)) (v3 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_v9) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_v15) = v2 c
          ∧ r.2.mem ((c.tc : Thread Cert.ReferenceIdeal.nD Cert.ReferenceIdeal.τ).loc Cert.ReferenceIdeal.main_v73) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x2 : Shape := ⟨2, ![65536, 2]⟩
abbrev S512x2 : Shape := ⟨2, ![512, 2]⟩
abbrev S512 : Shape := ⟨1, ![512]⟩
abbrev S512x512 : Shape := ⟨2, ![512, 512]⟩
abbrev S1x2 : Shape := ⟨2, ![1, 2]⟩
abbrev S_ : Shape := ⟨0, ![]⟩

class Facts : Prop where
  bcast_S_S65536x2 : S_.BroadcastsInDim S65536x2 (![] : Fin 0 → Fin S65536x2.rank)
  reducesTo_S65536x2_S_d0_1 : S65536x2.ReducesTo [0, 1] S_
  h_S_ : 0 < S_.numel
  bcast_S_S512x2 : S_.BroadcastsInDim S512x2 (![] : Fin 0 → Fin S512x2.rank)
  reducesTo_S512x2_S_d0_1 : S512x2.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S1x2 : S_.BroadcastsInDim S1x2 (![] : Fin 0 → Fin S1x2.rank)
  reducesTo_S1x2_S_d0_1 : S1x2.ReducesTo [0, 1] S_

variable [Facts]

def fn_part1 {F : FTy → Type} [FloatOps F] (main_arg4 : FVec F S512 .f32) (main_arg5 : FVec F S1x2 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S1x2 .f32 := Host.absf main_arg5
  let main_cst_8 : FVec F S_ .f32 := constant S_ .f32 0x7F800000#32
  let main_v25 : FVec F S1x2 .f32 := broadcastInDim S1x2 ![] bcast_S_S1x2 main_cst_8
  let main_v26 : IVec S1x2 1 := cmpf .olt main_v24 main_v25
  let main_c_9 : IVec S_ 1 := constantI S_ 1 1#1
  let main_v27 : IVec S_ 1 := (fun x v => Host.reduce IntOp.andi x v reducesTo_S1x2_S_d0_1 h_S_) main_v26 main_c_9
  let main_v28 : IVec S_ 1 := andi main_v23 main_v27
  main_v28

def fn {F : FTy → Type} [FloatOps F] (main_arg0 : FVec F S65536x2 .f32) (main_arg1 : FVec F S512x2 .f32) (main_arg2 : FVec F S512 .f32) (main_arg3 : FVec F S512x512 .f32) (main_arg4 : FVec F S512 .f32) (main_arg5 : FVec F S1x2 .f32) : IVec S_ 1 :=
  let main_v0 : FVec F S65536x2 .f32 := Host.absf main_arg0
  let main_cst : FVec F S_ .f32 := constant S_ .f32 0x7F800000#32
  let main_v1 : FVec F S65536x2 .f32 := broadcastInDim S65536x2 ![] bcast_S_S65536x2 main_cst
  let main_v2 : IVec S65536x2 1 := cmpf .olt main_v0 main_v1
  let main_c : IVec S_ 1 := constantI S_ 1 1#1
  let main_v3 : IVec S_ 1 := (fun x v => Host.reduce IntOp.andi x v reducesTo_S65536x2_S_d0_1 h_S_) main_v2 main_c
  let main_v4 : FVec F S512x2 .f32 := Host.absf main_arg1
  let main_cst_0 : FVec F S_ .f32 := constant S_ .f32 0x7F800000#32
  let main_v5 : FVec F S512x2 .f32 := broadcastInDim S512x2 ![] bcast_S_S512x2 main_cst_0
  let main_v6 : IVec S512x2 1 := cmpf .olt main_v4 main_v5
  let main_c_1 : IVec S_ 1 := constantI S_ 1 1#1
  let main_v7 : IVec S_ 1 := (fun x v => Host.reduce IntOp.andi x v reducesTo_S512x2_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_v13 main_v16
-- ==== Kernel.lean ====
abbrev S65536x2 : Shape := ⟨2, ![65536, 2]⟩
abbrev S512x2 : Shape := ⟨2, ![512, 2]⟩
abbrev S512 : Shape := ⟨1, ![512]⟩
abbrev S512x512 : Shape := ⟨2, ![512, 512]⟩
abbrev S1x2 : Shape := ⟨2, ![1, 2]⟩
abbrev S1x512 : Shape := ⟨2, ![1, 512]⟩
abbrev S2x512 : Shape := ⟨2, ![2, 512]⟩
abbrev S2x1 : Shape := ⟨2, ![2, 1]⟩
abbrev S65536x4 : Shape := ⟨2, ![65536, 4]⟩
abbrev S2048x2 : Shape := ⟨2, ![2048, 2]⟩
abbrev S2048x4 : Shape := ⟨2, ![2048, 4]⟩
abbrev S2048x512 : Shape := ⟨2, ![2048, 512]⟩
abbrev S2048 : Shape := ⟨1, ![2048]⟩
abbrev S2048x1 : Shape := ⟨2, ![2048, 1]⟩
abbrev S65536x1 : Shape := ⟨2, ![65536, 1]⟩
abbrev S65536 : Shape := ⟨1, ![65536]⟩

abbrev nBuf : Space → Nat
  | .hbm => 16
  | .vmem => 10
  | .smem => 0
  | _ => 0

abbrev bufTy : (tb : Table) → Fin (tcTables nBuf tb) → BufTy
  | .hbm, ⟨0, _⟩ => ⟨S65536x2, .f32⟩
  | .hbm, ⟨1, _⟩ => ⟨S512x2, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S1x2, .f32⟩
  | .hbm, ⟨6, _⟩ => ⟨S1x512, .f32⟩
  | .hbm, ⟨7, _⟩ => ⟨S1x512, .f32⟩
  | .hbm, ⟨8, _⟩ => ⟨S2x512, .f32⟩
  | .hbm, ⟨9, _⟩ => ⟨S2x1, .f32⟩
  | .hbm, ⟨10, _⟩ => ⟨S65536x4, .f32⟩
  | .hbm, ⟨11, _⟩ => ⟨S65536x1, .f32⟩
  | .hbm, ⟨12, _⟩ => ⟨S65536x1, .f32⟩
  | .hbm, ⟨13, _⟩ => ⟨S65536x1, .f32⟩
  | .hbm, ⟨14, _⟩ => ⟨S65536, .f32⟩
  | .hbm, ⟨15, _⟩ => ⟨S65536x1, .f32⟩
  | .local _ .vmem, ⟨0, _⟩ => ⟨S2048x2, .f32⟩
  | .local _ .vmem, ⟨1, _⟩ => ⟨S2048x2, .f32⟩
  | .local _ .vmem, ⟨2, _⟩ => ⟨S512x2, .f32⟩
  | .local _ .vmem, ⟨3, _⟩ => ⟨S2x512, .f32⟩
  | .local _ .vmem, ⟨4, _⟩ => ⟨S1x512, .f32⟩
  | .local _ .vmem, ⟨5, _⟩ => ⟨S512x512, .f32⟩
  | .local _ .vmem, ⟨6, _⟩ => ⟨S1x512, .f32⟩
  | .local _ .vmem, ⟨7, _⟩ => ⟨S2x1, .f32⟩
  | .local _ .vmem, ⟨8, _⟩ => ⟨S2048x4, .f32⟩
  | .local _ .vmem, ⟨9, _⟩ => ⟨S2048x4, .f32⟩
  | _, _ => ⟨S65536x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x4 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S512_S1x512 : S512.ShapeCasts S1x512
  transposes_S512x2_S2x512_1_0 : S512x2.Transposes [1, 0] S2x512
  transposes_S1x2_S2x1_1_0 : S1x2.Transposes [1, 0] S2x1
  inb_S2048x2_S2048x2_0_0 : ∀ a, (![0, 0] : Fin 2 → Nat) a + S2048x2.size a ≤ S2048x2.size a
  h_S2048x2 : 0 < S2048x2.numel
  inb_S512x2_S512x2_0_0 : ∀ a, (![0, 0] : Fin 2 → Nat) a + S512x2.size a ≤ S512x2.size a
  h_S512x2 : 0 < S512x2.numel
  inb_S2x512_S2x512_0_0 : ∀ a, (![0, 0] : Fin 2 → Nat) a + S2x512.size a ≤ S2x512.size a
  h_S2x512 : 0 < S2x512.numel
  shapeCasts_S2x512_S2x512 : S2x512.ShapeCasts S2x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S512x512_S512x512_0_0 : ∀ a, (![0, 0] : Fin 2 → Nat) a + S512x512.size a ≤ S512x512.size a
  h_S512x512 : 0 < S512x512.numel
  inb_S2x1_S2x1_0_0 : ∀ a, (![0, 0] : Fin 2 → Nat) a + S2x1.size a ≤ S2x1.size a
  h_S2x1 : 0 < S2x1.numel
  shapeCasts_S2x1_S2x1 : S2x1.ShapeCasts S2x1
  broadcasts_S1x512_S2048x512 : S1x512.Broadcasts S2048x512
  reduces_S2048x512_S2048 : S2048x512.Reduces [1] S2048
  shapeCasts_S2048_S2048x1 : S2048.ShapeCasts S2048x1
  slices_S2048x2_o0_0_S2048x1 : S2048x2.Slices ![0, 0] S2048x1
  slices_S2048x2_o0_1_S2048x1 : S2048x2.Slices ![0, 1] S2048x1
  concatenates_S2048x1_S2048x1_S2048x2_d1 : Shape.Concatenates [S2048x1, S2048x1] S2048x2 1
  reduces_S2048x2_S2048 : S2048x2.Reduces [1] S2048
  reduces_S2048x1_S2048 : S2048x1.Reduces [1] S2048
  concatenates_S2048x1_S2048x1_S2048x1_S2048x1_S2048x4_d1 : Shape.Concatenates [S2048x1, S2048x1, S2048x1, S2048x1] S2048x4 1
  inb_S2048x4_S2048x4_0_0 : ∀ a, (![0, 0] : Fin 2 → Nat) a + S2048x4.size a ≤ S2048x4.size a
  h_S2048x4 : 0 < S2048x4.numel
  slices_S65536x4_S65536x1_0_0 : S65536x4.Slices ![0, 0] S65536x1
  slices_S65536x4_S65536x1_0_1 : S65536x4.Slices ![0, 1] S65536x1
  slices_S65536x4_S65536x1_0_2 : S65536x4.Slices ![0, 2] S65536x1
  shapeCasts_S65536x1_S65536 : S65536x1.ShapeCasts S65536
  slices_S65536x4_S65536x1_0_3 : S65536x4.Slices ![0, 3] S65536x1
  dot_S2048x2_S2x512_S2048x512_1_0_0_1_n_n_wf : DotDims.WF S2048x2 S2x512 S2048x512 [1] [0] [0] [1] [] []
  dot_S2048x512_S512x512_S2048x512_1_1_0_0_n_n_wf : DotDims.WF S2048x512 S512x512 S2048x512 [1] [1] [0] [0] [] []
  dot_S2048x512_S512x512_S2048x512_1_0_0_1_n_n_wf : DotDims.WF S2048x512 S512x512 S2048x512 [1] [0] [0] [1] [] []
  dot_S2048x512_S512x2_S2048x2_1_0_0_1_n_n_wf : DotDims.WF S2048x512 S512x2 S2048x2 [1] [0] [0] [1] [] []
  dot_S2048x2_S2x1_S2048x1_1_0_0_1_n_n_wf : DotDims.WF S2048x2 S2x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2.size a ≤ S65536x2.size a
  hwx0_0 : ∀ i : grid0.Coords, EltTy.bits .f32 = 32 ∨ (Rect.block (s := S65536x2) S2048x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x2.size a ≤ S512x2.size a
  hwx0_1 : ∀ i : grid0.Coords, EltTy.bits .f32 = 32 ∨ (Rect.block (s := S512x2) S512x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x512.size a ≤ S2x512.size a
  hwx0_2 : ∀ i : grid0.Coords, EltTy.bits .f32 = 32 ∨ (Rect.block (s := S2x512) S2x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2x1.size a ≤ S2x1.size a
  hwx0_6 : ∀ i : grid0.Coords, EltTy.bits .f32 = 32 ∨ (Rect.block (s := S2x1) S2x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x4.size a ≤ S65536x4.size a
  hwx0_7 : ∀ i : grid0.Coords, EltTy.bits .f32 = 32 ∨ (Rect.block (s := S65536x4) S2048x4.size (cc0_transform_7 i) (hinb0_7 i)).WholeWords (EltTy.packing .f32)

variable [Facts₀]

def dot_S2048x2_S2x512_S2048x512_1_0_0_1_n_n : DotDims S2048x2 S2x512 S2048x512 where
  lhsContracting := [1]
  rhsContracting := [0]
  lhsNonContracting := [0]
  rhsNonContracting := [1]
  lhsBatch := []
  rhsBatch := []
  wf := dot_S2048x2_S2x512_S2048x512_1_0_0_1_n_n_wf
def dot_S2048x512_S512x512_S2048x512_1_1_0_0_n_n : DotDims S2048x512 S512x512 S2048x512 where
  lhsContracting := [1]
  rhsContracting := [1]
  lhsNonContracting := [0]
  rhsNonContracting := [0]
  lhsBatch := []
  rhsBatch := []
  wf := dot_S2048x512_S512x512_S2048x512_1_1_0_0_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S2048x512_S512x2_S2048x2_1_0_0_1_n_n : DotDims S2048x512 S512x2 S2048x2 where
  lhsContracting := [1]
  rhsContracting := [0]
  lhsNonContracting := [0]
  rhsNonContracting := [1]
  lhsBatch := []
  rhsBatch := []
  wf := dot_S2048x512_S512x2_S2048x2_1_0_0_1_n_n_wf
def dot_S2048x2_S2x1_S2048x1_1_0_0_1_n_n : DotDims S2048x2 S2x1 S2048x1 where
  lhsContracting := [1]
  rhsContracting := [0]
  lhsNonContracting := [0]
  rhsNonContracting := [1]
  lhsBatch := []
  rhsBatch := []
  wf := dot_S2048x2_S2x1_S2048x1_1_0_0_1_n_n_wf

abbrev win0_0 : Pipeline.Window sig grid0 :=
  Pipeline.Window.ofSpec (Memref.whole main_arg0) S2048x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S2x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S2048x4.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S65536x2 : Shape := ⟨2, ![65536, 2]⟩
abbrev S512x2 : Shape := ⟨2, ![512, 2]⟩
abbrev S512 : Shape := ⟨1, ![512]⟩
abbrev S512x512 : Shape := ⟨2, ![512, 512]⟩
abbrev S1x2 : Shape := ⟨2, ![1, 2]⟩
abbrev S2x512 : Shape := ⟨2, ![2, 512]⟩
abbrev S65536x512 : Shape := ⟨2, ![65536, 512]⟩
abbrev S1x512 : Shape := ⟨2, ![1, 512]⟩
abbrev S_ : Shape := ⟨0, ![]⟩
abbrev S65536 : Shape := ⟨1, ![65536]⟩
abbrev S65536x1 : Shape := ⟨2, ![65536, 1]⟩
abbrev S2x1 : Shape := ⟨2, ![2, 1]⟩

abbrev nBuf : Space → Nat
  | .hbm => 95
  | .vmem => 0
  | .smem => 0
  | _ => 0

abbrev bufTy : (tb : Table) → Fin (tcTables nBuf tb) → BufTy
  | .hbm, ⟨0, _⟩ => ⟨S65536x2, .f32⟩
  | .hbm, ⟨1, _⟩ => ⟨S512x2, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S1x2, .f32⟩
  | .hbm, ⟨6, _⟩ => ⟨S2x512, .f32⟩
  | .hbm, ⟨7, _⟩ => ⟨S65536x512, .f32⟩
  | .hbm, ⟨8, _⟩ => ⟨S1x512, .f32⟩
  | .hbm, ⟨9, _⟩ => ⟨S65536x512, .f32⟩
  | .hbm, ⟨10, _⟩ => ⟨S65536x512, .f32⟩
  | .hbm, ⟨11, _⟩ => ⟨S65536x512, .f32⟩
  | .hbm, ⟨12, _⟩ => ⟨S512x512, .f32⟩
  | .hbm, ⟨13, _⟩ => ⟨S65536x512, .f32⟩
  | .hbm, ⟨14, _⟩ => ⟨S1x512, .f32⟩
  | .hbm, ⟨15, _⟩ => ⟨S65536x512, .f32⟩
  | .hbm, ⟨16, _⟩ => ⟨S65536x512, .f32⟩
  | .hbm, ⟨17, _⟩ => ⟨S65536x512, .f32⟩
  | .hbm, ⟨18, _⟩ => ⟨S65536x512, .f32⟩
  | .hbm, ⟨19, _⟩ => ⟨S_, .f32⟩
  | .hbm, ⟨20, _⟩ => ⟨S65536, .f32⟩
  | .hbm, ⟨21, _⟩ => ⟨S_, .f32⟩
  | .hbm, ⟨22, _⟩ => ⟨S65536, .f32⟩
  | .hbm, ⟨23, _⟩ => ⟨S65536, .f32⟩
  | .hbm, ⟨24, _⟩ => ⟨S65536x512, .f32⟩
  | .hbm, ⟨25, _⟩ => ⟨S_, .f32⟩
  | .hbm, ⟨26, _⟩ => ⟨S65536x512, .f32⟩
  | .hbm, ⟨27, _⟩ => ⟨S65536x512, .f32⟩
  | .hbm, ⟨28, _⟩ => ⟨S65536x512, .f32⟩
  | .hbm, ⟨29, _⟩ => ⟨S65536x512, .f32⟩
  | .hbm, ⟨30, _⟩ => ⟨S65536x512, .f32⟩
  | .hbm, ⟨31, _⟩ => ⟨S_, .f32⟩
  | .hbm, ⟨32, _⟩ => ⟨S65536x512, .f32⟩
  | .hbm, ⟨33, _⟩ => ⟨S65536x512, .f32⟩
  | .hbm, ⟨34, _⟩ => ⟨S65536x512, .f32⟩
  | .hbm, ⟨35, _⟩ => ⟨S65536x2, .f32⟩
  | .hbm, ⟨36, _⟩ => ⟨S65536x1, .f32⟩
  | .hbm, ⟨37, _⟩ => ⟨S65536, .f32⟩
  | .hbm, ⟨38, _⟩ => ⟨S65536x1, .f32⟩
  | .hbm, ⟨39, _⟩ => ⟨S65536, .f32⟩
  | .hbm, ⟨40, _⟩ => ⟨S65536, .f32⟩
  | .hbm, ⟨41, _⟩ => ⟨S_, .f32⟩
  | .hbm, ⟨42, _⟩ => ⟨S65536, .f32⟩
  | .hbm, ⟨43, _⟩ => ⟨S65536, .f32⟩
  | .hbm, ⟨44, _⟩ => ⟨S65536x1, .f32⟩
  | .hbm, ⟨45, _⟩ => ⟨S65536, .f32⟩
  | .hbm, ⟨46, _⟩ => ⟨S_, .f32⟩
  | .hbm, ⟨47, _⟩ => ⟨S65536, .f32⟩
  | .hbm, ⟨48, _⟩ => ⟨S65536, .f32⟩
  | .hbm, ⟨49, _⟩ => ⟨S65536, .f32⟩
  | .hbm, ⟨50, _⟩ => ⟨S65536x1, .f32⟩
  | .hbm, ⟨51, _⟩ => ⟨S65536x1, .f32⟩
  | .hbm, ⟨52, _⟩ => ⟨S65536x2, .f32⟩
  | .hbm, ⟨53, _⟩ => ⟨S65536x2, .f32⟩
  | .hbm, ⟨54, _⟩ => ⟨S_, .f32⟩
  | .hbm, ⟨55, _⟩ => ⟨S65536, .f32⟩
  | .hbm, ⟨56, _⟩ => ⟨S65536x1, .f32⟩
  | .hbm, ⟨57, _⟩ => ⟨S65536x1, .f32⟩
  | .hbm, ⟨58, _⟩ => ⟨S_, .f32⟩
  | .hbm, ⟨59, _⟩ => ⟨S65536x1, .f32⟩
  | .hbm, ⟨60, _⟩ => ⟨S65536x1, .f32⟩
  | .hbm, ⟨61, _⟩ => ⟨S2x1, .f32⟩
  | .hbm, ⟨62, _⟩ => ⟨S65536x1, .f32⟩
  | .hbm, ⟨63, _⟩ => ⟨S65536x1, .f32⟩
  | .hbm, ⟨64, _⟩ => ⟨S65536x1, .f32⟩
  | .hbm, ⟨65, _⟩ => ⟨S_, .f32⟩
  | .hbm, ⟨66, _⟩ => ⟨S65536, .f32⟩
  | .hbm, ⟨67, _⟩ => ⟨S65536x1, .f32⟩
  | .hbm, ⟨68, _⟩ => ⟨S65536x1, .f32⟩
  | .hbm, ⟨69, _⟩ => ⟨S65536x1, .f32⟩
  | .hbm, ⟨70, _⟩ => ⟨S_, .f32⟩
  | .hbm, ⟨71, _⟩ => ⟨S65536x1, .f32⟩
  | .hbm, ⟨72, _⟩ => ⟨S65536x1, .f32⟩
  | .hbm, ⟨73, _⟩ => ⟨S65536x1, .f32⟩
  | .hbm, ⟨74, _⟩ => ⟨S65536x1, .f32⟩
  | .hbm, ⟨75, _⟩ => ⟨S_, .f32⟩
  | .hbm, ⟨76, _⟩ => ⟨S65536, .f32⟩
  | .hbm, ⟨77, _⟩ => ⟨S65536x1, .f32⟩
  | .hbm, ⟨78, _⟩ => ⟨S_, .f32⟩
  | .hbm, ⟨79, _⟩ => ⟨S65536x1, .f32⟩
  | .hbm, ⟨80, _⟩ => ⟨S65536x1, .f32⟩
  | .hbm, ⟨81, _⟩ => ⟨S_, .f32⟩
  | .hbm, ⟨82, _⟩ => ⟨S65536x1, .f32⟩
  | .hbm, ⟨83, _⟩ => ⟨S65536x1, .f32⟩
  | .hbm, ⟨84, _⟩ => ⟨S65536x1, .f32⟩
  | .hbm, ⟨85, _⟩ => ⟨S65536x1, .f32⟩
  | .hbm, ⟨86, _⟩ => ⟨S65536x1, .f32⟩
  | .hbm, ⟨87, _⟩ => ⟨S_, .f32⟩
  | .hbm, ⟨88, _⟩ => ⟨S65536x1, .f32⟩
  | .hbm, ⟨89, _⟩ => ⟨S65536x1, .f32⟩
  | .hbm, ⟨90, _⟩ => ⟨S65536x1, .f32⟩
  | .hbm, ⟨91, _⟩ => ⟨S_, .f32⟩
  | .hbm, ⟨92, _⟩ => ⟨S65536, .f32⟩
  | .hbm, ⟨93, _⟩ => ⟨S65536x1, .f32⟩
  | .hbm, ⟨94, _⟩ => ⟨S65536x1, .f32⟩
  | _, _ => ⟨S65536x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_4 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_5 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_6 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_7 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_8 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_9 : Ref sig .tc := ⟨.hbm, 75, rfl⟩
abbrev main_v59 : Ref sig .tc := ⟨.hbm, 76, rfl⟩
abbrev main_v60 : Ref sig .tc := ⟨.hbm, 77, rfl⟩
abbrev main_cst_10 : Ref sig .tc := ⟨.hbm, 78, rfl⟩
abbrev main_v61 : Ref sig .tc := ⟨.hbm, 79, rfl⟩
abbrev main_v62 : Ref sig .tc := ⟨.hbm, 80, rfl⟩
abbrev main_cst_11 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_12 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_13 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩

abbrev nD : Nat := 1
abbrev τ : Topo := Topo.v7x

variable {F : FTy → Type} [FloatOps F]

class Facts₀ : Prop where
  transposes_S512x2_S2x512_1_0 : S512x2.Transposes [1, 0] S2x512
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  transposes_S512x512_S512x512_1_0 : S512x512.Transposes [1, 0] S512x512
  reducesTo_S65536x512_S65536_d1 : S65536x512.ReducesTo [1] S65536
  h_S_ : 0 < S_.numel
  bcast_S_S65536 : S_.BroadcastsInDim S65536 (![] : Fin 0 → Fin S65536.rank)
  bcast_S_S65536x512 : S_.BroadcastsInDim S65536x512 (![] : Fin 0 → Fin S65536x512.rank)
  slices_S65536x2_S65536x1_0_1 : S65536x2.Slices ![0, 1] S65536x1
  shapeCasts_S65536x1_S65536 : S65536x1.ShapeCasts S65536
  slices_S65536x2_S65536x1_0_0 : S65536x2.Slices ![0, 0] S65536x1
  bcast_S65536_S65536x1_0 : S65536.BroadcastsInDim S65536x1 (![0] : Fin 1 → Fin S65536x1.rank)
  concatenates_S65536x1_S65536x1_S65536x2_d1 : Shape.Concatenates [S65536x1, S65536x1] S65536x2 1
  reducesTo_S65536x2_S65536_d1 : S65536x2.ReducesTo [1] S65536
  bcast_S_S65536x1 : S_.BroadcastsInDim S65536x1 (![] : Fin 0 → Fin S65536x1.rank)
  transposes_S1x2_S2x1_1_0 : S1x2.Transposes [1, 0] S2x1
  reducesTo_S65536x1_S65536_d1 : S65536x1.ReducesTo [1] S65536
  dot_S65536x2_S2x512_S65536x512_1_0_0_1_n_n_wf : DotDims.WF S65536x2 S2x512 S65536x512 [1] [0] [0] [1] [] []
  dot_S65536x512_S512x512_S65536x512_1_0_0_1_n_n_wf : DotDims.WF S65536x512 S512x512 S65536x512 [1] [0] [0] [1] [] []
  dot_S65536x512_S512x2_S65536x2_1_0_0_1_n_n_wf : DotDims.WF S65536x512 S512x2 S65536x2 [1] [0] [0] [1] [] []
  dot_S65536x2_S2x1_S65536x1_1_0_0_1_n_n_wf : DotDims.WF S65536x2 S2x1 S65536x1 [1] [0] [0] [1] [] []

variable [Facts₀]

def dot_S65536x2_S2x512_S65536x512_1_0_0_1_n_n : DotDims S65536x2 S2x512 S65536x512 where
  lhsContracting := [1]
  rhsContracting := [0]
  lhsNonContracting := [0]
  rhsNonContracting := [1]
  lhsBatch := []
  rhsBatch := []
  wf := dot_S65536x2_S2x512_S65536x512_1_0_0_1_n_n_wf
def dot_S65536x512_S512x512_S65536x512_1_0_0_1_n_n : DotDims S65536x512 S512x512 S65536x512 where
  lhsContracting := [1]
  rhsContracting := [0]
  lhsNonContracting := [0]
  rhsNonContracting := [1]
  lhsBatch := []
  rhsBatch := []
  wf := dot_S65536x512_S512x512_S65536x512_1_0_0_1_n_n_wf
def dot_S65536x512_S512x2_S65536x2_1_0_0_1_n_n : DotDims S65536x512 S512x2 S65536x2 where
  lhsContracting := [1]
  rhsContracting := [0]
  lhsNonContracting := [0]
  rhsNonContracting := [1]
  lhsBatch := []
  rhsBatch := []
  wf := dot_S65536x512_S512x2_S65536x2_1_0_0_1_n_n_wf
def dot_S65536x2_S2x1_S65536x1_1_0_0_1_n_n : DotDims S65536x2 S2x1 S65536x1 where
  lhsContracting := [1]
  rhsContracting := [0]
  lhsNonContracting := [0]
  rhsNonContracting := [1]
  lhsBatch := []
  rhsBatch := []
  wf := dot_S65536x2_S2x1_S65536x1_1_0_0_1_n_n_wf

class Facts : Prop extends Facts₀ where

variable [Facts]
-- ==== Proof.LibColumn.lean ====
/-
  Two layout operations read at an index, for a per-row quantity kept as a column (a reduction over the last axis
  with the reduced axis kept as a unit axis): a vector of `a` entries cast to the column `[a, 1]`, and a column
  `[a, 1]` broadcast along its unit axis to `[a, b]`. Both are instances of the general readings of a shape cast
  (same row-major position) and of a broadcast (coordinate 0 on the operand's unit axes).
-/
import Idealize.ShloMosaic.Lib.Pipeline.Value
import Idealize.ShloMosaic.Lib.ValueIdx

namespace Cert.LibColumn

open Idealize.ShloMosaic Idealize.ShloMosaic.ValueIdx

variable {α : Type}

/-- A vector `[a]` cast to the column `[a, 1]` reads, at `(i, u)`, the vector at `i`, whatever the unit coordinate `u`:
    position `i · 1 + u = i` in both. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibRowOps.lean ====
/-
  Row-wise operations read at an index, for a computation carried out on every row of a matrix independently:
  a sum along each row kept as a column, a matrix product whose right operand is contracted on its LAST axis,
  and columns set side by side.
-/
import proofs.«145592_j2001454760659_2_alg».proof.Proof.LibColumn
import Idealize.ShloMosaic.PureOps.Ideal.Laws
import Idealize.ShloMosaic.Lib.ValueLayout

noncomputable section

namespace Cert.Lib.RowOps

open Idealize.ShloMosaic Idealize.ShloMosaic.ValueIdx

/-! ## A sum along each row, kept as a column -/

/-- The sum along each row of an `[a, b]` matrix, kept as the column `[a, 1]`, reads at row `p` the sum of that row's
    `b` entries. -/
theorem rowSum_column_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (p : Fin a) (u : Fin 1) :
    shapeCast ⟨2, ![a, 1]⟩ (multiReduction (F := Ideal) .add [1] ⟨1, ![a]⟩ v acc h hφ hacc) hc (ix2 p u)
      = ∑ k : Fin b, v (ix2 p k) := by
  refine (Cert.LibColumn.shapeCast_a_a1_apply _ hc p u).trans ?_
  refine (Ideal.multiReduction_add_single v acc h hφ hacc (ix1 p)).trans ?_
  refine Finset.sum_congr rfl fun k _ => congrArg v ?_
  funext ax
  apply Fin.ext
  match ax with
  | ⟨0, _⟩ => rfl
  | ⟨1, _⟩ => rfl

/-! ## An `M x K` by `N x K` product: both operands contracted on their last axis -/

section RhsT

variable (M K N : ℕ)

theorem lhs0T (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch by simp [DotDims.transposedRhs]),
    dif_pos (show (0 : Fin (⟨2, ![M, K]⟩ : Shape).rank) ∈ (DotDims.transposedRhs M K N).lhsNonContracting by simp [DotDims.transposedRhs])]
  rfl

theorem rhs0T (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch by simp [DotDims.transposedRhs]),
    dif_pos (show (0 : Fin (⟨2, ![N, K]⟩ : Shape).rank) ∈ (DotDims.transposedRhs M K N).rhsNonContracting by simp [DotDims.transposedRhs])]
  rfl

/-- The contraction sum of such a product, over the contracted coordinate: the left operand at `(row, k)`, the right
    at `(column, k)`. -/
theorem sum_rhsT {α : Type*} [AddCommMonoid α] (f : (⟨2, ![M, K]⟩ : Shape).Idx → (⟨2, ![N, K]⟩ : Shape).Idx → α)
    (i : (⟨2, ![M, N]⟩ : Shape).Idx) :
    ∑ q : (DotDims.transposedRhs M K N).contr.Idx,
        f ((DotDims.transposedRhs M K N).lhsIdx i q) ((DotDims.transposedRhs M K N).rhsIdx i q)
      = ∑ k : Fin K, f (ix2 (i 0) k) (ix2 (i 1) k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx i ((contrEquiv1 (DotDims.transposedRhs M K N) K rfl rfl).symm k) = ix2 (i 0) k :=
    funext fun a => Fin.ext (by
      match a with
      | ⟨0, _⟩ => exact lhs0T M K N _ _
      | ⟨1, _⟩ => exact ((DotDims.transposedRhs M K N).lhsIdx_val_of_single (cl := 1) rfl i _).trans hk)
  have er : (DotDims.transposedRhs M K N).rhsIdx i ((contrEquiv1 (DotDims.transposedRhs M K N) K rfl rfl).symm k) = ix2 (i 1) k :=
    funext fun a => Fin.ext (by
      match a with
      | ⟨0, _⟩ => exact rhs0T M K N _ _
      | ⟨1, _⟩ => exact ((DotDims.transposedRhs M K N).rhsIdx_val_of_single (cr := 1) rfl i _).trans hk)
  rw [el, er]
  rfl

/-- The matrix unit's product of this form into a zero accumulator, at an index. -/
theorem matmul_zero_rhsT_apply {φ₁ φ₂ : FTy} (prec : Option ContractPrecision)
    (l : FVec Ideal ⟨2, ![M, K]⟩ φ₁) (r : FVec Ideal ⟨2, ![N, K]⟩ φ₂) (i : (⟨2, ![M, N]⟩ : Shape).Idx) :
    FloatOps.matmul (DotDims.transposedRhs M K N) prec l r (constant ⟨2, ![M, N]⟩ .f32 0x00000000#32) i
      = ∑ k : Fin K, l (ix2 (i 0) k) * r (ix2 (i 1) k) := by
  rw [Ideal.matmul_constant_zero_apply]
  exact sum_rhsT M K N (fun a b => l a * r b) i

end RhsT

/-! ## Columns side by side -/

section Columns

variable {α : Type} {a : ℕ}

/-- Two columns side by side: column 0 is the first. -/
theorem columns2_apply0 (x₁ x₂ : (⟨2, ![a, 1]⟩ : Shape).Idx → α)
    (h : Shape.Concatenates [(⟨2, ![a, 1]⟩ : Shape), ⟨2, ![a, 1]⟩] ⟨2, ![a, 2]⟩ 1) (p : Fin a) :
    concatenate ⟨2, ![a, 2]⟩ 1 [⟨⟨2, ![a, 1]⟩, x₁⟩, ⟨⟨2, ![a, 1]⟩, x₂⟩] h (ix2 p (0 : Fin 2)) = x₁ (ix2 p (0 : Fin 1)) :=
  concatenate_pair_apply_left 1 x₁ x₂ h (ix2 p (0 : Fin 2)) rfl (ix2 p (0 : Fin 1))
    (fun b => match b with | ⟨0, _⟩ => rfl | ⟨1, _⟩ => rfl)

/-- Two columns side by side: column 1 is the second. -/
theorem columns2_apply1 (x₁ x₂ : (⟨2, ![a, 1]⟩ : Shape).Idx → α)
    (h : Shape.Concatenates [(⟨2, ![a, 1]⟩ : Shape), ⟨2, ![a, 1]⟩] ⟨2, ![a, 2]⟩ 1) (p : Fin a) :
    concatenate ⟨2, ![a, 2]⟩ 1 [⟨⟨2, ![a, 1]⟩, x₁⟩, ⟨⟨2, ![a, 1]⟩, x₂⟩] h (ix2 p (1 : Fin 2)) = x₂ (ix2 p (0 : Fin 1)) :=
  concatenate_pair_apply_right 1 x₁ x₂ h (ix2 p (1 : Fin 2)) rfl rfl (ix2 p (0 : Fin 1))
    (fun b hb => match b, hb with
      | ⟨0, _⟩, _ => rfl
      | ⟨1, _⟩, hb => absurd rfl hb)
    rfl

/-- Four columns side by side: column 0 is the first. -/
theorem columns4_apply0 (x₀ x₁ x₂ x₃ : (⟨2, ![a, 1]⟩ : Shape).Idx → α)
    (h : Shape.Concatenates [(⟨2, ![a, 1]⟩ : Shape), ⟨2, ![a, 1]⟩, ⟨2, ![a, 1]⟩, ⟨2, ![a, 1]⟩] ⟨2, ![a, 4]⟩ 1) (p : Fin a) :
    concatenate ⟨2, ![a, 4]⟩ 1 [⟨⟨2, ![a, 1]⟩, x₀⟩, ⟨⟨2, ![a, 1]⟩, x₁⟩, ⟨⟨2, ![a, 1]⟩, x₂⟩, ⟨⟨2, ![a, 1]⟩, x₃⟩] h (ix2 p (0 : Fin 4))
      = x₀ (ix2 p (0 : Fin 1)) :=
  concatenate_apply_piece (t := ⟨2, ![a, 4]⟩) 1 [⟨⟨2, ![a, 1]⟩, x₀⟩, ⟨⟨2, ![a, 1]⟩, x₁⟩, ⟨⟨2, ![a, 1]⟩, x₂⟩, ⟨⟨2, ![a, 1]⟩, x₃⟩] h (ix2 p (0 : Fin 4)) 0 (by show (0 : ℕ) < 4; omega) ⟨2, ![a, 1]⟩ x₀ rfl rfl 0 rfl (ix2 p (0 : Fin 1)) (fun (b : Fin 2) hb => match b, hb with | ⟨0, _⟩, _ => rfl | ⟨1, _⟩, hb => absurd rfl hb) rfl

/-- Four columns side by side: column 1 is the second. -/
theorem columns4_apply1 (x₀ x₁ x₂ x₃ : (⟨2, ![a, 1]⟩ : Shape).Idx → α)
    (h : Shape.Concatenates [(⟨2, ![a, 1]⟩ : Shape), ⟨2, ![a, 1]⟩, ⟨2, ![a, 1]⟩, ⟨2, ![a, 1]⟩] ⟨2, ![a, 4]⟩ 1) (p : Fin a) :
    concatenate ⟨2, ![a, 4]⟩ 1 [⟨⟨2, ![a, 1]⟩, x₀⟩, ⟨⟨2, ![a, 1]⟩, x₁⟩, ⟨⟨2, ![a, 1]⟩, x₂⟩, ⟨⟨2, ![a, 1]⟩, x₃⟩] h (ix2 p (1 : Fin 4))
      = x₁ (ix2 p (0 : Fin 1)) :=
  concatenate_apply_piece (t := ⟨2, ![a, 4]⟩) 1 [⟨⟨2, ![a, 1]⟩, x₀⟩, ⟨⟨2, ![a, 1]⟩, x₁⟩, ⟨⟨2, ![a, 1]⟩, x₂⟩, ⟨⟨2, ![a, 1]⟩, x₃⟩] h (ix2 p (1 : Fin 4)) 1 (by show (1 : ℕ) < 4; omega) ⟨2, ![a, 1]⟩ x₁ rfl rfl 1 rfl (ix2 p (0 : Fin 1)) (fun (b : Fin 2) hb => match b, hb with | ⟨0, _⟩, _ => rfl | ⟨1, _⟩, hb => absurd rfl hb) rfl

/-- Four columns side by side: column 2 is the third. -/
theorem columns4_apply2 (x₀ x₁ x₂ x₃ : (⟨2, ![a, 1]⟩ : Shape).Idx → α)
    (h : Shape.Concatenates [(⟨2, ![a, 1]⟩ : Shape), ⟨2, ![a, 1]⟩, ⟨2, ![a, 1]⟩, ⟨2, ![a, 1]⟩] ⟨2, ![a, 4]⟩ 1) (p : Fin a) :
    concatenate ⟨2, ![a, 4]⟩ 1 [⟨⟨2, ![a, 1]⟩, x₀⟩, ⟨⟨2, ![a, 1]⟩, x₁⟩, ⟨⟨2, ![a, 1]⟩, x₂⟩, ⟨⟨2, ![a, 1]⟩, x₃⟩] h (ix2 p (2 : Fin 4))
      = x₂ (ix2 p (0 : Fin 1)) :=
  concatenate_apply_piece (t := ⟨2, ![a, 4]⟩) 1 [⟨⟨2, ![a, 1]⟩, x₀⟩, ⟨⟨2, ![a, 1]⟩, x₁⟩, ⟨⟨2, ![a, 1]⟩, x₂⟩, ⟨⟨2, ![a, 1]⟩, x₃⟩] h (ix2 p (2 : Fin 4)) 2 (by show (2 : ℕ) < 4; omega) ⟨2, ![a, 1]⟩ x₂ rfl rfl 2 rfl (ix2 p (0 : Fin 1)) (fun (b : Fin 2) hb => match b, hb with | ⟨0, _⟩, _ => rfl | ⟨1, _⟩, hb => absurd rfl hb) rfl

/-- Four columns side by side: column 3 is the fourth. -/
theorem columns4_apply3 (x₀ x₁ x₂ x₃ : (⟨2, ![a, 1]⟩ : Shape).Idx → α)
    (h : Shape.Concatenates [(⟨2, ![a, 1]⟩ : Shape), ⟨2, ![a, 1]⟩, ⟨2, ![a, 1]⟩, ⟨2, ![a, 1]⟩] ⟨2, ![a, 4]⟩ 1) (p : Fin a) :
    concatenate ⟨2, ![a, 4]⟩ 1 [⟨⟨2, ![a, 1]⟩, x₀⟩, ⟨⟨2, ![a, 1]⟩, x₁⟩, ⟨⟨2, ![a, 1]⟩, x₂⟩, ⟨⟨2, ![a, 1]⟩, x₃⟩] h (ix2 p (3 : Fin 4))
      = x₃ (ix2 p (0 : Fin 1)) :=
  concatenate_apply_piece (t := ⟨2, ![a, 4]⟩) 1 [⟨⟨2, ![a, 1]⟩, x₀⟩, ⟨⟨2, ![a, 1]⟩, x₁⟩, ⟨⟨2, ![a, 1]⟩, x₂⟩, ⟨⟨2, ![a, 1]⟩, x₃⟩] h (ix2 p (3 : Fin 4)) 3 (by show (3 : ℕ) < 4; omega) ⟨2, ![a, 1]⟩ x₃ rfl rfl 3 rfl (ix2 p (0 : Fin 1)) (fun (b : Fin 2) hb => match b, hb with | ⟨0, _⟩, _ => rfl | ⟨1, _⟩, hb => absurd rfl hb) rfl

end Columns

end Cert.Lib.RowOps

end
-- ==== Proof.LibPlainDot.lean ====
/-
  A plain matrix product read at an index.

  For the dimension numbers of an `M x K` by `K x N` product (contract the left operand's columns with the right
  operand's rows, no batch axis) the contraction index is one coordinate `k < K`, the left operand is read at
  `(row, k)` and the right at `(k, column)`. So at the ideal instance both the matrix unit's product into a zero
  accumulator and the host's `dot_general` are, at output index `(r, c)`, the sum over `k` of `l (r, k) * r (k, c)`.
-/
import Idealize.ShloMosaic.PureOps.Ideal.Laws
import Idealize.ShloMosaic.Lib.ValueIdx

noncomputable section

namespace Cert.Lib.PlainDot

open Idealize.ShloMosaic Idealize.ShloMosaic.ValueIdx

variable (M K N : ℕ)

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction sum of a plain product, over the contracted coordinate. -/
theorem sum_plain {α : Type*} [AddCommMonoid α] (f : (⟨2, ![M, K]⟩ : Shape).Idx → (⟨2, ![K, N]⟩ : Shape).Idx → α)
    (i : (⟨2, ![M, N]⟩ : Shape).Idx) :
    ∑ q : (DotDims.plain M K N).contr.Idx, f ((DotDims.plain M K N).lhsIdx i q) ((DotDims.plain M K N).rhsIdx i q)
      = ∑ k : Fin K, f (ix2 (i 0) k) (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs0 M K N _ _
      | ⟨1, _⟩ => exact ((DotDims.plain M K N).lhsIdx_val_of_single (cl := 1) rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single (cr := 0) rfl i _).trans hk
      | ⟨1, _⟩ => exact rhs1 M K N _ _)
  rw [el, er]
  rfl

/-- The matrix unit's product into a zero accumulator, at an index. -/
theorem matmul_zero_apply {φ₁ φ₂ : FTy} (prec : Option ContractPrecision)
    (l : FVec Ideal ⟨2, ![M, K]⟩ φ₁) (r : FVec Ideal ⟨2, ![K, N]⟩ φ₂) (i : (⟨2, ![M, N]⟩ : Shape).Idx) :
    FloatOps.matmul (DotDims.plain M K N) prec l r (constant ⟨2, ![M, N]⟩ .f32 0x00000000#32) i
      = ∑ k : Fin K, l (ix2 (i 0) k) * r (ix2 k (i 1)) := by
  rw [Ideal.matmul_constant_zero_apply]
  exact sum_plain M K N (fun a b => l a * r b) i

/-- The host's `dot_general`, at an index. -/
theorem dotGeneral_apply {φ₁ φ₂ : FTy} (prec : Option ContractPrecision) (sched : HostSchedule)
    (l : FVec Ideal ⟨2, ![M, K]⟩ φ₁) (r : FVec Ideal ⟨2, ![K, N]⟩ φ₂) (i : (⟨2, ![M, N]⟩ : Shape).Idx) :
    FloatOps.dotGeneral (DotDims.plain M K N) prec sched l r i
      = ∑ k : Fin K, l (ix2 (i 0) k) * r (ix2 k (i 1)) := by
  rw [Ideal.dotGeneral_apply]
  exact sum_plain M K N (fun a b => l a * r b) i

end Cert.Lib.PlainDot

end
-- ==== Proof.Spec.lean ====
/-
  The quantity both programs compute, for ONE state of the pendulum, as a function on the extended reals.

  A state is a pair `xr = (θ, ω)`. A two-layer network with weights `W1, b1, W2, b2` gives hidden activations
  `h₁ = tanh (W1 xr + b1)`, `h₂ = tanh (W2 h₁ + b2)` and the Lyapunov candidate `V = ½ ‖h₂‖²`. Its gradient in the state
  is the chain rule written entry by entry: `∇V = W1ᵀ diag(1 - h₁²) W2ᵀ (h₂ ∘ (1 - h₂²))`. With the drift
  `f = (ω, a sin θ - d ω)` and input direction `(0, 1/I)` the Lie derivatives are `L_f V = ∇V · f` and
  `L_g V = (∇V)₁ / I`, the nominal input is `-K xr`, and the quadratic programme with one relaxed constraint has the
  closed solution `μ = max (L_f V + L_g V u₀ + λ V, 0) / (L_g V² + 1/(2p))`, `u = u₀ - μ L_g V`, `r = μ / (2p)`,
  `V̇ = L_f V + L_g V u`. Every constant is kept as the binary32 word both programs carry, so no constant is ever
  evaluated; sums are finite sums in the commutative monoid of extended reals, so no order of summation is fixed.
-/
import Idealize.ShloMosaic.PureOps.Ideal

noncomputable section

namespace Cert.Clf

open Idealize.ShloMosaic

/-- `1/2`. -/
abbrev cHalf : EReal := Ideal.ofBits .f32 0x3F000000#32
/-- `1` (also the decay rate `λ`). -/
abbrev cOne : EReal := Ideal.ofBits .f32 0x3F800000#32
/-- The gravity coefficient `m g l / I` of the drift, rounded. -/
abbrev cGrav : EReal := Ideal.ofBits .f32 0x41157C58#32
/-- The damping coefficient `b / I` of the drift, rounded. -/
abbrev cDamp : EReal := Ideal.ofBits .f32 0x3DC30C31#32
/-- The inertia `I`, rounded. -/
abbrev cInertia : EReal := Ideal.ofBits .f32 0x3F866666#32
/-- `1 / (2 p)` for the relaxation penalty `p`, rounded. -/
abbrev cRelax : EReal := Ideal.ofBits .f32 0x3D4CCCCD#32
/-- `2 p`. -/
abbrev cTwoP : EReal := Ideal.ofBits .f32 0x41A00000#32

section Net

variable (xr : Fin 2 → EReal) (W1 : Fin 512 → Fin 2 → EReal) (b1 : Fin 512 → EReal)
  (W2 : Fin 512 → Fin 512 → EReal) (b2 : Fin 512 → EReal)

/-- First hidden layer: `h₁ j = tanh (Σ_k xr k · W1 j k + b1 j)`. -/
def hid1 (j : Fin 512) : EReal := Ideal.tanh ((∑ k : Fin 2, xr k * W1 j k) + b1 j)

/-- Second hidden layer: `h₂ j = tanh (Σ_k h₁ k · W2 j k + b2 j)`. -/
def hid2 (j : Fin 512) : EReal := Ideal.tanh ((∑ k : Fin 512, hid1 xr W1 b1 k * W2 j k) + b2 j)

/-- The Lyapunov candidate `V = ½ Σ_k h₂ k²`. -/
def lyap : EReal := cHalf * ∑ k : Fin 512, hid2 xr W1 b1 W2 b2 k * hid2 xr W1 b1 W2 b2 k

/-- `∂V/∂(pre-activation of layer 2)`: `h₂ k (1 - h₂ k²)`. -/
def back2 (k : Fin 512) : EReal :=
  hid2 xr W1 b1 W2 b2 k * (cOne - hid2 xr W1 b1 W2 b2 k * hid2 xr W1 b1 W2 b2 k)

/-- `∂V/∂(pre-activation of layer 1)`: `(Σ_k back2 k · W2 k j) (1 - h₁ j²)`. -/
def back1 (j : Fin 512) : EReal :=
  (∑ k : Fin 512, back2 xr W1 b1 W2 b2 k * W2 k j) * (cOne - hid1 xr W1 b1 j * hid1 xr W1 b1 j)

/-- The gradient of `V` in the state: `(∇V) c = Σ_k back1 k · W1 k c`. -/
def grad (c : Fin 2) : EReal := ∑ k : Fin 512, back1 xr W1 b1 W2 b2 k * W1 k c

end Net

section Programme

variable (xr : Fin 2 → EReal) (K : Fin 2 → EReal) (g : Fin 2 → EReal) (V : EReal)

/-- The second component of the drift: `a sin θ - d ω`. -/
def drift1 : EReal := cGrav * Ideal.sin (xr 0) - cDamp * xr 1

/-- `L_f V = g₀ ω + g₁ (a sin θ - d ω)` for a gradient `g`. -/
def lieF : EReal := g 0 * xr 1 + g 1 * drift1 xr

/-- `L_g V = g₁ / I`. -/
def lieG : EReal := Ideal.div (g 1) cInertia

/-- The nominal input `u₀ = -(Σ_k xr k · K k)`. -/
def nominal : EReal := -(∑ k : Fin 2, xr k * K k)

/-- The multiplier of the relaxed constraint: `max (L_f V + L_g V u₀ + λ V, 0) / (L_g V² + 1/(2p))`. -/
def mult : EReal :=
  Ideal.div (max ((lieF xr g + lieG g * nominal xr K) + cOne * V) 0) (lieG g * lieG g + cRelax)

/-- The input `u = u₀ - μ L_g V`. -/
def ctrl : EReal := nominal xr K - mult xr K g V * lieG g

/-- The relaxation `r = μ / (2p)`. -/
def relax : EReal := Ideal.div (mult xr K g V) cTwoP

/-- `V̇ = L_f V + L_g V u`. -/
def lyapDot : EReal := lieF xr g + lieG g * ctrl xr K g V

end Programme

section Whole

variable (xr : Fin 2 → EReal) (W1 : Fin 512 → Fin 2 → EReal) (b1 : Fin 512 → EReal)
  (W2 : Fin 512 → Fin 512 → EReal) (b2 : Fin 512 → EReal) (K : Fin 2 → EReal)

/-- The four results for one state, in the order `u, r, V, V̇`. -/
def results (q : Fin 4) : EReal :=
  match q with
  | ⟨0, _⟩ => ctrl xr K (grad xr W1 b1 W2 b2) (lyap xr W1 b1 W2 b2)
  | ⟨1, _⟩ => relax xr K (grad xr W1 b1 W2 b2) (lyap xr W1 b1 W2 b2)
  | ⟨2, _⟩ => lyap xr W1 b1 W2 b2
  | ⟨3, _⟩ => lyapDot xr K (grad xr W1 b1 W2 b2) (lyap xr W1 b1 W2 b2)

end Whole

end Cert.Clf

end
-- ==== Proof.KernelRow.lean ====
/-
  The kernel body's arithmetic on one block of 2048 states, read at an index.

  The body receives a block `xb` of 2048 rows of the batch, the weights `W1` (and its transpose `W1ᵀ`), the biases as rows
  `[1, 512]`, `W2`, and the gain as a column `Kᵀ`. Every quantity it forms for row `p` of the block depends on row `p` of
  `xb` only — the matrix products contract over features, never over rows, and the sums run along rows — so row `p` of
  each intermediate is the specification's quantity for the state `xb p`: the hidden layers, the Lyapunov candidate,
  its gradient, and finally the four results of the quadratic programme set side by side as the four columns of the
  block that is written back.
-/
import proofs.«145592_j2001454760659_2_alg».proof.Proof.Gen.KernelIdeal.Skeleton
import proofs.«145592_j2001454760659_2_alg».proof.Proof.LibRowOps
import proofs.«145592_j2001454760659_2_alg».proof.Proof.LibPlainDot
import proofs.«145592_j2001454760659_2_alg».proof.Proof.Spec

noncomputable section

namespace Cert.Clf.Kernel

open Cert.KernelIdeal Cert.KernelIdeal.Gen Idealize.ShloMosaic Idealize.ShloMosaic.ValueIdx

/-! ## The body's non-pointwise operations at an index, as the body spells them -/

/-- `xb · W1ᵀ` at `(p, j)`. -/
theorem mm_2_512 (l : FVec Ideal S2048x2 .f32) (r : FVec Ideal S2x512 .f32) (p : Fin 2048) (j : Fin 512) :
    matmul dot_S2048x2_S2x512_S2048x512_1_0_0_1_n_n (some .fp32) l r (constant S2048x512 .f32 0x00000000#32) (ix2 p j)
      = ∑ k : Fin 2, l (ix2 p k) * r (ix2 k j) :=
  Cert.Lib.PlainDot.matmul_zero_apply 2048 2 512 (some .fp32) l r (ix2 p j)

/-- A product with `W2` contracted on `W2`'s second axis, at `(p, j)`. -/
theorem mm_512T (l : FVec Ideal S2048x512 .f32) (r : FVec Ideal S512x512 .f32) (p : Fin 2048) (j : Fin 512) :
    matmul dot_S2048x512_S512x512_S2048x512_1_1_0_0_n_n (some .fp32) l r (constant S2048x512 .f32 0x00000000#32) (ix2 p j)
      = ∑ k : Fin 512, l (ix2 p k) * r (ix2 j k) :=
  Cert.Lib.RowOps.matmul_zero_rhsT_apply 2048 512 512 (some .fp32) l r (ix2 p j)

/-- A product with `W2` contracted on `W2`'s first axis, at `(p, j)`. -/
theorem mm_512 (l : FVec Ideal S2048x512 .f32) (r : FVec Ideal S512x512 .f32) (p : Fin 2048) (j : Fin 512) :
    matmul dot_S2048x512_S512x512_S2048x512_1_0_0_1_n_n (some .fp32) l r (constant S2048x512 .f32 0x00000000#32) (ix2 p j)
      = ∑ k : Fin 512, l (ix2 p k) * r (ix2 k j) :=
  Cert.Lib.PlainDot.matmul_zero_apply 2048 512 512 (some .fp32) l r (ix2 p j)

/-- A product with `W1`, at `(p, c)`. -/
theorem mm_512_2 (l : FVec Ideal S2048x512 .f32) (r : FVec Ideal S512x2 .f32) (p : Fin 2048) (c : Fin 2) :
    matmul dot_S2048x512_S512x2_S2048x2_1_0_0_1_n_n (some .fp32) l r (constant S2048x2 .f32 0x00000000#32) (ix2 p c)
      = ∑ k : Fin 512, l (ix2 p k) * r (ix2 k c) :=
  Cert.Lib.PlainDot.matmul_zero_apply 2048 512 2 (some .fp32) l r (ix2 p c)

/-- `xb · Kᵀ` at `(p, 0)`. -/
theorem mm_2_1 (l : FVec Ideal S2048x2 .f32) (r : FVec Ideal S2x1 .f32) (p : Fin 2048) (u : Fin 1) :
    matmul dot_S2048x2_S2x1_S2048x1_1_0_0_1_n_n (some .fp32) l r (constant S2048x1 .f32 0x00000000#32) (ix2 p u)
      = ∑ k : Fin 2, l (ix2 p k) * r (ix2 k u) :=
  Cert.Lib.PlainDot.matmul_zero_apply 2048 2 1 (some .fp32) l r (ix2 p u)

/-- The sum along each row of a `[2048, 512]` value, kept as a column. -/
theorem rowSum512 (v : FVec Ideal S2048x512 .f32) (hφ : FKind.Formats .f32)
    (hacc : (0x00000000#32 : BitVec 32) = 0x00000000#32) (p : Fin 2048) (u : Fin 1) :
    shapeCast S2048x1 (multiReduction (F := Ideal) .add [1] S2048 v 0x00000000#32 reduces_S2048x512_S2048 hφ hacc)
      shapeCasts_S2048_S2048x1 (ix2 p u) = ∑ k : Fin 512, v (ix2 p k) :=
  Cert.Lib.RowOps.rowSum_column_apply v _ _ hφ hacc _ p u

/-- The sum along each row of a `[2048, 2]` value, kept as a column. -/
theorem rowSum2 (v : FVec Ideal S2048x2 .f32) (hφ : FKind.Formats .f32)
    (hacc : (0x00000000#32 : BitVec 32) = 0x00000000#32) (p : Fin 2048) (u : Fin 1) :
    shapeCast S2048x1 (multiReduction (F := Ideal) .add [1] S2048 v 0x00000000#32 reduces_S2048x2_S2048 hφ hacc)
      shapeCasts_S2048_S2048x1 (ix2 p u) = ∑ k : Fin 2, v (ix2 p k) :=
  Cert.Lib.RowOps.rowSum_column_apply v _ _ hφ hacc _ p u

/-- The sum along each row of a `[2048, 1]` value, kept as a column. -/
theorem rowSum1 (v : FVec Ideal S2048x1 .f32) (hφ : FKind.Formats .f32)
    (hacc : (0x00000000#32 : BitVec 32) = 0x00000000#32) (p : Fin 2048) (u : Fin 1) :
    shapeCast S2048x1 (multiReduction (F := Ideal) .add [1] S2048 v 0x00000000#32 reduces_S2048x1_S2048 hφ hacc)
      shapeCasts_S2048_S2048x1 (ix2 p u) = ∑ k : Fin 1, v (ix2 p k) :=
  Cert.Lib.RowOps.rowSum_column_apply v _ _ hφ hacc _ p u

/-- Column 0 of a `[2048, 2]` value. -/
theorem col0 (v : FVec Ideal S2048x2 .f32) (p : Fin 2048) (u : Fin 1) :
    extractStridedSlice S2048x1 ![0, 0] v slices_S2048x2_o0_0_S2048x1 (ix2 p u) = v (ix2 p (0 : Fin 2)) :=
  slice2_axis1_apply 0 v _ p u 0 (by have := u.isLt; show (0 : ℕ) = 0 + u.val; omega)

/-- Column 1 of a `[2048, 2]` value. -/
theorem col1 (v : FVec Ideal S2048x2 .f32) (p : Fin 2048) (u : Fin 1) :
    extractStridedSlice S2048x1 ![0, 1] v slices_S2048x2_o0_1_S2048x1 (ix2 p u) = v (ix2 p (1 : Fin 2)) :=
  slice2_axis1_apply 1 v _ p u 1 (by have := u.isLt; show (1 : ℕ) = 1 + u.val; omega)

/-- A bias row spread over the block's rows. -/
theorem biasRow (v : FVec Ideal S1x512 .f32) (p : Fin 2048) (j : Fin 512) :
    broadcastTo S2048x512 v broadcasts_S1x512_S2048x512 (ix2 p j) = v (ix2 (0 : Fin 1) j) :=
  broadcastTo_1b_ab_apply v _ p j

/-- The drift's two components side by side: column 0. -/
theorem drift_col0 (a b : FVec Ideal S2048x1 .f32) (p : Fin 2048) :
    concatenate S2048x2 1 [⟨S2048x1, a⟩, ⟨S2048x1, b⟩] concatenates_S2048x1_S2048x1_S2048x2_d1 (ix2 p (0 : Fin 2))
      = a (ix2 p (0 : Fin 1)) :=
  Cert.Lib.RowOps.columns2_apply0 a b _ p

/-- The drift's two components side by side: column 1. -/
theorem drift_col1 (a b : FVec Ideal S2048x1 .f32) (p : Fin 2048) :
    concatenate S2048x2 1 [⟨S2048x1, a⟩, ⟨S2048x1, b⟩] concatenates_S2048x1_S2048x1_S2048x2_d1 (ix2 p (1 : Fin 2))
      = b (ix2 p (0 : Fin 1)) :=
  Cert.Lib.RowOps.columns2_apply1 a b _ p

/-- The four results side by side: column 0. -/
theorem packed_col0 (a b c d : FVec Ideal S2048x1 .f32) (p : Fin 2048) :
    concatenate S2048x4 1 [⟨S2048x1, a⟩, ⟨S2048x1, b⟩, ⟨S2048x1, c⟩, ⟨S2048x1, d⟩]
      concatenates_S2048x1_S2048x1_S2048x1_S2048x1_S2048x4_d1 (ix2 p (0 : Fin 4)) = a (ix2 p (0 : Fin 1)) :=
  Cert.Lib.RowOps.columns4_apply0 a b c d _ p

/-- The four results side by side: column 1. -/
theorem packed_col1 (a b c d : FVec Ideal S2048x1 .f32) (p : Fin 2048) :
    concatenate S2048x4 1 [⟨S2048x1, a⟩, ⟨S2048x1, b⟩, ⟨S2048x1, c⟩, ⟨S2048x1, d⟩]
      concatenates_S2048x1_S2048x1_S2048x1_S2048x1_S2048x4_d1 (ix2 p (1 : Fin 4)) = b (ix2 p (0 : Fin 1)) :=
  Cert.Lib.RowOps.columns4_apply1 a b c d _ p

/-- The four results side by side: column 2. -/
theorem packed_col2 (a b c d : FVec Ideal S2048x1 .f32) (p : Fin 2048) :
    concatenate S2048x4 1 [⟨S2048x1, a⟩, ⟨S2048x1, b⟩, ⟨S2048x1, c⟩, ⟨S2048x1, d⟩]
      concatenates_S2048x1_S2048x1_S2048x1_S2048x1_S2048x4_d1 (ix2 p (2 : Fin 4)) = c (ix2 p (0 : Fin 1)) :=
  Cert.Lib.RowOps.columns4_apply2 a b c d _ p

/-- The four results side by side: column 3. -/
theorem packed_col3 (a b c d : FVec Ideal S2048x1 .f32) (p : Fin 2048) :
    concatenate S2048x4 1 [⟨S2048x1, a⟩, ⟨S2048x1, b⟩, ⟨S2048x1, c⟩, ⟨S2048x1, d⟩]
      concatenates_S2048x1_S2048x1_S2048x1_S2048x1_S2048x4_d1 (ix2 p (3 : Fin 4)) = d (ix2 p (0 : Fin 1)) :=
  Cert.Lib.RowOps.columns4_apply3 a b c d _ p

/-! ## The network, row by row -/

section Net

variable (v0 : Vec Ideal S2048x2 .f32) (v1 : Vec Ideal S512x2 .f32) (v2 : Vec Ideal S2x512 .f32) (v4 : Vec Ideal S1x512 .f32)
  (v6 : Vec Ideal S512x512 .f32) (v7 : Vec Ideal S1x512 .f32)

/-- Row `p` of the first hidden layer's block is `h₁` of the state `xb p`, the first layer's weights read off the
    transposed copy. -/
theorem hid1_block (p : Fin 2048) (j : Fin 512) :
    k0_pay3 (F := Ideal) v0 v2 v4 (ix2 p j)
      = hid1 (fun k => v0 (ix2 p k)) (fun j k => v2 (ix2 k j)) (fun j => v4 (ix2 (0 : Fin 1) j)) j := by
  unfold k0_pay3 hid1
  simp only [shapeCast_self, tanh, addf, mm_2_512, biasRow, Ideal.tanh_def, Ideal.addf_def]

/-- Row `p` of the second hidden layer's block is `h₂` of the state `xb p`. -/
theorem hid2_block (p : Fin 2048) (j : Fin 512) :
    k0_pay4 (F := Ideal) v0 v2 v4 v6 v7 (ix2 p j)
      = hid2 (fun k => v0 (ix2 p k)) (fun j k => v2 (ix2 k j)) (fun j => v4 (ix2 (0 : Fin 1) j))
          (fun j k => v6 (ix2 j k)) (fun j => v7 (ix2 (0 : Fin 1) j)) j := by
  unfold k0_pay4 hid2
  simp only [shapeCast_self, tanh, addf, mm_512T, biasRow, hid1_block, Ideal.tanh_def, Ideal.addf_def]

/-- Row `p` of the Lyapunov column is `V` of the state `xb p`. -/
theorem lyap_block (p : Fin 2048) (u : Fin 1) :
    k0_pay5 (F := Ideal) v0 v2 v4 v6 v7 (ix2 p u)
      = lyap (fun k => v0 (ix2 p k)) (fun j k => v2 (ix2 k j)) (fun j => v4 (ix2 (0 : Fin 1) j))
          (fun j k => v6 (ix2 j k)) (fun j => v7 (ix2 (0 : Fin 1) j)) := by
  unfold k0_pay5 lyap
  simp only [mulf, broadcast, Ideal.mulf_def, Ideal.ofBits_def]
  rw [rowSum512]
  simp only [mulf, hid2_block, Ideal.mulf_def]

/-- Row `p` of the gradient block is `∇V` of the state `xb p`: the chain rule entry by entry, the last product
    with `W1` itself. -/
theorem grad_block (p : Fin 2048) (c : Fin 2) :
    k0_pay6 (F := Ideal) v0 v1 v2 v4 v6 v7 (ix2 p c)
      = ∑ k : Fin 512, back1 (fun k => v0 (ix2 p k)) (fun j k => v2 (ix2 k j)) (fun j => v4 (ix2 (0 : Fin 1) j))
          (fun j k => v6 (ix2 j k)) (fun j => v7 (ix2 (0 : Fin 1) j)) k * v1 (ix2 k c) := by
  unfold k0_pay6 back1 back2
  simp only [mulf, subf, broadcast, mm_512_2, mm_512, hid2_block, hid1_block, Ideal.mulf_def, Ideal.subf_def, Ideal.ofBits_def]

end Net

/-! ## The programme, row by row -/

/-- The gain column the body reads is the array it was given. -/
theorem gain_block (v9 : Vec Ideal S2x1 .f32) : k0_pay2 (F := Ideal) v9 = v9 := by
  unfold k0_pay2
  exact shapeCast_self _ _

/-- Row `p` of the angular-velocity column is `ω` of the state `xb p`. -/
theorem omega_block (v0 : Vec Ideal S2048x2 .f32) (p : Fin 2048) (u : Fin 1) :
    k0_pay7 (F := Ideal) v0 (ix2 p u) = v0 (ix2 p (1 : Fin 2)) := by
  unfold k0_pay7
  exact col1 v0 p u

/-- Row `p` of the sine column is `sin θ` of the state `xb p`. -/
theorem sin_block (v0 : Vec Ideal S2048x2 .f32) (p : Fin 2048) (u : Fin 1) :
    k0_pay8 (F := Ideal) v0 (ix2 p u) = Ideal.sin (v0 (ix2 p (0 : Fin 2))) := by
  unfold k0_pay8
  simp only [sin, col0, Ideal.sin_def]

section Programme

variable (v0 : Vec Ideal S2048x2 .f32) (v10 : FVec Ideal S2x1 .f32) (v23 : FVec Ideal S2048x1 .f32)
  (v33 : FVec Ideal S2048x2 .f32) (v35 v36 : FVec Ideal S2048x1 .f32) (p : Fin 2048)
  (h35 : v35 (ix2 p (0 : Fin 1)) = v0 (ix2 p (1 : Fin 2)))
  (h36 : v36 (ix2 p (0 : Fin 1)) = Ideal.sin (v0 (ix2 p (0 : Fin 2))))

include h35 h36 in
/-- Column 0 of row `p` of the written block is the input `u` of the state `xb p`, for the gradient and the
    candidate the body was handed. -/
theorem ctrl_block :
    k0_pay1 (F := Ideal) v0 v10 v23 v33 v35 v36 (ix2 p (0 : Fin 4))
      = ctrl (fun k => v0 (ix2 p k)) (fun k => v10 (ix2 k (0 : Fin 1))) (fun c => v33 (ix2 p c)) (v23 (ix2 p (0 : Fin 1))) := by
  unfold k0_pay1 ctrl mult lieF lieG nominal drift1
  simp only [packed_col0, subf, mulf, addf, divf, maximumf, broadcast, mm_2_1, col1]
  rw [rowSum2, rowSum1, rowSum1]
  simp only [subf, mulf, addf, divf, maximumf, broadcast, mm_2_1, col1, drift_col0, drift_col1, Fin.sum_univ_two, Fin.sum_univ_one, h35, h36, Ideal.subf_def, Ideal.mulf_def, Ideal.addf_def, Ideal.divf_def, Ideal.maximumf_def, Ideal.ofBits_def, Ideal.ofBits_zero_f32, zero_sub]

include h35 h36 in
/-- Column 1 of row `p` of the written block is the relaxation `r` of the state `xb p`. -/
theorem relax_block :
    k0_pay1 (F := Ideal) v0 v10 v23 v33 v35 v36 (ix2 p (1 : Fin 4))
      = relax (fun k => v0 (ix2 p k)) (fun k => v10 (ix2 k (0 : Fin 1))) (fun c => v33 (ix2 p c)) (v23 (ix2 p (0 : Fin 1))) := by
  unfold k0_pay1 relax mult lieF lieG nominal drift1
  simp only [packed_col1, subf, mulf, addf, divf, maximumf, broadcast, mm_2_1, col1]
  rw [rowSum2, rowSum1, rowSum1]
  simp only [subf, mulf, addf, divf, maximumf, broadcast, mm_2_1, col1, drift_col0, drift_col1, Fin.sum_univ_two, Fin.sum_univ_one, h35, h36, Ideal.subf_def, Ideal.mulf_def, Ideal.addf_def, Ideal.divf_def, Ideal.maximumf_def, Ideal.ofBits_def, Ideal.ofBits_zero_f32, zero_sub]

/-- Column 2 of row `p` of the written block is the candidate the body was handed. -/
theorem lyap_pass :
    k0_pay1 (F := Ideal) v0 v10 v23 v33 v35 v36 (ix2 p (2 : Fin 4)) = v23 (ix2 p (0 : Fin 1)) := by
  unfold k0_pay1
  simp only [packed_col2]

include h35 h36 in
/-- Column 3 of row `p` of the written block is `V̇` of the state `xb p`. -/
theorem lyapDot_block :
    k0_pay1 (F := Ideal) v0 v10 v23 v33 v35 v36 (ix2 p (3 : Fin 4))
      = lyapDot (fun k => v0 (ix2 p k)) (fun k => v10 (ix2 k (0 : Fin 1))) (fun c => v33 (ix2 p c)) (v23 (ix2 p (0 : Fin 1))) := by
  unfold k0_pay1 lyapDot ctrl mult lieF lieG nominal drift1
  simp only [packed_col3, subf, mulf, addf, divf, maximumf, broadcast, mm_2_1, col1]
  rw [rowSum2, rowSum1]
  simp only [subf, mulf, addf, divf, maximumf, broadcast, mm_2_1, col1, Fin.sum_univ_one]
  rw [rowSum2, rowSum1, rowSum1]
  simp only [subf, mulf, addf, divf, maximumf, broadcast, mm_2_1, col1, drift_col0, drift_col1, Fin.sum_univ_two, Fin.sum_univ_one, h35, h36, Ideal.subf_def, Ideal.mulf_def, Ideal.addf_def, Ideal.divf_def, Ideal.maximumf_def, Ideal.ofBits_def, Ideal.ofBits_zero_f32, zero_sub]

end Programme

/-! ## The block that is written back -/

section Block

variable (x0 : Vec Ideal S2048x2 .f32) (x1 : Vec Ideal S512x2 .f32) (x2 : Vec Ideal S2x512 .f32) (x3 : Vec Ideal S1x512 .f32)
  (x4 : Vec Ideal S512x512 .f32) (x5 : Vec Ideal S1x512 .f32) (x6 : Vec Ideal S2x1 .f32)
  (hT : ∀ (k : Fin 512) (c : Fin 2), x1 (ix2 k c) = x2 (ix2 c k))

include hT in
/-- When the second weight operand is the transpose of the first, entry `(p, q)` of the block the body writes back is
    result `q` of the state in row `p` of the block of states. -/
theorem block_results (p : Fin 2048) (q : Fin 4) :
    k0_pay1 (F := Ideal) x0 (k0_pay2 x6) (k0_pay5 x0 x2 x3 x4 x5) (k0_pay6 x0 x1 x2 x3 x4 x5) (k0_pay7 x0) (k0_pay8 x0) (ix2 p q)
      = results (fun k => x0 (ix2 p k)) (fun j k => x2 (ix2 k j)) (fun j => x3 (ix2 (0 : Fin 1) j)) (fun j k => x4 (ix2 j k))
          (fun j => x5 (ix2 (0 : Fin 1) j)) (fun k => x6 (ix2 k (0 : Fin 1))) q := by
  have hg : (fun c => k0_pay6 (F := Ideal) x0 x1 x2 x3 x4 x5 (ix2 p c))
      = grad (fun k => x0 (ix2 p k)) (fun j k => x2 (ix2 k j)) (fun j => x3 (ix2 (0 : Fin 1) j)) (fun j k => x4 (ix2 j k))
          (fun j => x5 (ix2 (0 : Fin 1) j)) := by
    funext c
    rw [grad_block]
    unfold grad
    simp only [hT]
  have hV := lyap_block x0 x2 x3 x4 x5 p (0 : Fin 1)
  match q with
  | ⟨0, _⟩ =>
    refine (ctrl_block x0 _ _ _ _ _ p (omega_block x0 p 0) (sin_block x0 p 0)).trans ?_
    rw [hg, hV, gain_block]
    rfl
  | ⟨1, _⟩ =>
    refine (relax_block x0 _ _ _ _ _ p (omega_block x0 p 0) (sin_block x0 p 0)).trans ?_
    rw [hg, hV, gain_block]
    rfl
  | ⟨2, _⟩ =>
    refine (lyap_pass x0 _ _ _ _ _ p).trans ?_
    rw [hV]
    rfl
  | ⟨3, _⟩ =>
    refine (lyapDot_block x0 _ _ _ _ _ p (omega_block x0 p 0) (sin_block x0 p 0)).trans ?_
    rw [hg, hV, gain_block]
    rfl

end Block

end Cert.Clf.Kernel

end
-- ==== Proof.SpecArrays.lean ====
/-
  The specification read off the argument ARRAYS: state `i` of the batch is row `i` of `x`, the weights are the
  arrays' entries, and the four results of every state make four arrays — three columns `[65536, 1]` and, for the
  Lyapunov candidate, a vector `[65536]` — as well as one packed `[65536, 4]` array holding all four side by side.
-/
import proofs.«145592_j2001454760659_2_alg».proof.Proof.Spec
import Idealize.ShloMosaic.Lib.ValueIdx

noncomputable section

namespace Cert.Clf

open Idealize.ShloMosaic Idealize.ShloMosaic.ValueIdx

/-- Row `i` of the batch of states. -/
def rowOf (x : (⟨2, ![65536, 2]⟩ : Shape).Idx → EReal) (i : Fin 65536) : Fin 2 → EReal := fun k => x (ix2 i k)
/-- The first layer's weights, `W1 j k`. -/
def mat1 (W1 : (⟨2, ![512, 2]⟩ : Shape).Idx → EReal) : Fin 512 → Fin 2 → EReal := fun j k => W1 (ix2 j k)
/-- A bias vector. -/
def vec (b : (⟨1, ![512]⟩ : Shape).Idx → EReal) : Fin 512 → EReal := fun j => b (ix1 j)
/-- The second layer's weights, `W2 j k`. -/
def mat2 (W2 : (⟨2, ![512, 512]⟩ : Shape).Idx → EReal) : Fin 512 → Fin 512 → EReal := fun j k => W2 (ix2 j k)
/-- The nominal feedback's gain row. -/
def gain (K : (⟨2, ![1, 2]⟩ : Shape).Idx → EReal) : Fin 2 → EReal := fun k => K (ix2 (0 : Fin 1) k)

section
variable (x : (⟨2, ![65536, 2]⟩ : Shape).Idx → EReal) (W1 : (⟨2, ![512, 2]⟩ : Shape).Idx → EReal)
  (b1 : (⟨1, ![512]⟩ : Shape).Idx → EReal) (W2 : (⟨2, ![512, 512]⟩ : Shape).Idx → EReal)
  (b2 : (⟨1, ![512]⟩ : Shape).Idx → EReal) (K : (⟨2, ![1, 2]⟩ : Shape).Idx → EReal)

/-- Result `q` (of `u, r, V, V̇`) for state `i` of the batch. -/
def resultsAt (i : Fin 65536) (q : Fin 4) : EReal :=
  results (rowOf x i) (mat1 W1) (vec b1) (mat2 W2) (vec b2) (gain K) q

/-- Result `q` of every state, as a column. -/
def column (q : Fin 4) : (⟨2, ![65536, 1]⟩ : Shape).Idx → EReal := fun j => resultsAt x W1 b1 W2 b2 K (j 0) q

/-- Result `q` of every state, as a vector. -/
def vector (q : Fin 4) : (⟨1, ![65536]⟩ : Shape).Idx → EReal := fun j => resultsAt x W1 b1 W2 b2 K (j 0) q

/-- The four results of every state side by side. -/
def packed : (⟨2, ![65536, 4]⟩ : Shape).Idx → EReal := fun j => resultsAt x W1 b1 W2 b2 K (j 0) (j 1)

end

end Cert.Clf

end
-- ==== Proof.KernelArray.lean ====
/-
  The array the region leaves behind.

  The grid has 32 points; point `t` is handed rows `2048 t … 2048 t + 2047` of the batch of states and the whole of every
  weight array — the first layer's weights both as given and transposed, the biases as rows, the gain as a column, these
  four prepared by the host before the region — and writes back rows `2048 t … 2048 t + 2047` of a `[65536, 4]` array.
  By the row-wise reading of the body, what point `t` writes is exactly those rows of ONE array: the four results of every
  state side by side. The 32 blocks tile the array, so after the region the array is that one.
-/
import proofs.«145592_j2001454760659_2_alg».proof.Proof.Gen.KernelIdeal.Frame
import proofs.«145592_j2001454760659_2_alg».proof.Proof.KernelRow
import proofs.«145592_j2001454760659_2_alg».proof.Proof.SpecArrays
import Idealize.ShloMosaic.Lib.Pipeline.Value
import Idealize.ShloMosaic.Lib.ValueLayout
import Idealize.ShloMosaic.Lib.StableHlo.Run

set_option maxRecDepth 16384

noncomputable section

namespace Cert.Clf.KernelArray

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-! ## What the host prepared before the region -/

/-- The first bias as a row. -/
theorem V_bias1 (c : Dev nD) : (V m c main_v0 : S1x512.Idx → EReal)
    = shapeCast S1x512 (m ((c : Thread nD τ).loc main_arg2)) Facts₀.shapeCasts_S512_S1x512 := by
  show StableHlo.after hostOps0 (fun b => m (c, b)) (Proc.devRef .tc main_v0) = _
  after_results
  rfl

/-- The second bias as a row. -/
theorem V_bias2 (c : Dev nD) : (V m c main_v1 : S1x512.Idx → EReal)
    = shapeCast S1x512 (m ((c : Thread nD τ).loc main_arg4)) Facts₀.shapeCasts_S512_S1x512 := by
  show StableHlo.after hostOps0 (fun b => m (c, b)) (Proc.devRef .tc main_v1) = _
  after_results
  rfl

/-- The first layer's weights transposed. -/
theorem V_weights1T (c : Dev nD) : (V m c main_v2 : S2x512.Idx → EReal)
    = transpose S2x512 [1, 0] (m ((c : Thread nD τ).loc main_arg1)) Facts₀.transposes_S512x2_S2x512_1_0 := by
  show StableHlo.after hostOps0 (fun b => m (c, b)) (Proc.devRef .tc main_v2) = _
  after_results

/-- The gain as a column. -/
theorem V_gainT (c : Dev nD) : (V m c main_v3 : S2x1.Idx → EReal)
    = transpose S2x1 [1, 0] (m ((c : Thread nD τ).loc main_arg5)) Facts₀.transposes_S1x2_S2x1_1_0 := by
  show StableHlo.after hostOps0 (fun b => m (c, b)) (Proc.devRef .tc main_v3) = _
  after_results

/-! ## Which block each window hands to a point -/

/-- The printed index maps over the 32 points: the states' window and the output's move one block of rows per point;
    every other window stays on its one block. -/
theorem idx_facts : ∀ t : Fin cfg0.N,
    win0_0.index t (0 : Fin 2) = t.val ∧ win0_0.index t (1 : Fin 2) = 0
    ∧ win0_7.index t (0 : Fin 2) = t.val ∧ win0_7.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- Every block of rows of the output is some point's. -/
theorem idx_onto : ∀ q0 : Fin 32, ∃ t : Fin cfg0.N, win0_7.index t = ![q0.val, 0] :=
  (by decide +kernel : ∀ q0 : Fin 32, ∃ t : Fin grid0.N, win0_7.index t = ![q0.val, 0])

theorem point_lt (t : Fin cfg0.N) : t.val < 32 := lt_of_lt_of_eq t.isLt N_0

/-- The row of the batch that is row `p` of point `t`'s block. -/
def rowIdx (t : Fin cfg0.N) (p : Fin 2048) : Fin 65536 :=
  ⟨t.val * 2048 + p.val, by have := point_lt t; have := p.isLt; omega⟩

/-- Point `t`'s block of states is rows `2048 t + p` of the batch. -/
theorem read_states (c : Dev nD) (t : Fin cfg0.N) (p : Fin 2048) (k : Fin 2) :
    iblk m c 0 t (ix2 p k) = m ((c : Thread nD τ).loc main_arg0) (ix2 (rowIdx t p) k) := by
  obtain ⟨e0, e1, -⟩ := idx_facts t
  show V m c main_arg0 (((cfg0.win 0).blk t).view.emb (ix2 p k)) = _
  rw [V_main_arg0]
  have h : ((cfg0.win 0).blk t).view.emb (ix2 p k) = ix2 (rowIdx t p) k := by
    funext a; apply Fin.ext
    match a with
    | ⟨0, _⟩ => show win0_0.index t (0 : Fin 2) * 2048 + 1 * p.val = t.val * 2048 + p.val; rw [e0]; omega
    | ⟨1, _⟩ => show win0_0.index t (1 : Fin 2) * 2 + 1 * k.val = k.val; rw [e1]; omega
  rw [h]

/-- Every point is handed the whole of the first layer's weights. -/
theorem read_weights1 (c : Dev nD) (t : Fin cfg0.N) (y : S512x2.Idx) :
    iblk m c 1 t y = m ((c : Thread nD τ).loc main_arg1) y := by
  obtain ⟨-, -, -, -, e0, e1, -⟩ := idx_facts t
  show V m c main_arg1 (((cfg0.win 1).blk t).view.emb y) = _
  rw [V_main_arg1]
  have h : ((cfg0.win 1).blk t).view.emb y = y := by
    funext a; apply Fin.ext
    match a with
    | ⟨0, _⟩ => show win0_1.index t (0 : Fin 2) * 512 + 1 * (y 0).val = (y 0).val; rw [e0]; omega
    | ⟨1, _⟩ => show win0_1.index t (1 : Fin 2) * 2 + 1 * (y 1).val = (y 1).val; rw [e1]; omega
  rw [h]

/-- … and of their transpose, -/
theorem read_weights1T (c : Dev nD) (t : Fin cfg0.N) (y : S2x512.Idx) :
    iblk m c 2 t y = V m c main_v2 y := by
  obtain ⟨-, -, -, -, -, -, e0, e1, -⟩ := idx_facts t
  show V m c main_v2 (((cfg0.win 2).blk t).view.emb y) = _
  have h : ((cfg0.win 2).blk t).view.emb y = y := by
    funext a; apply Fin.ext
    match a with
    | ⟨0, _⟩ => show win0_2.index t (0 : Fin 2) * 2 + 1 * (y 0).val = (y 0).val; rw [e0]; omega
    | ⟨1, _⟩ => show win0_2.index t (1 : Fin 2) * 512 + 1 * (y 1).val = (y 1).val; rw [e1]; omega
  rw [h]

/-- … of the first bias row, -/
theorem read_bias1 (c : Dev nD) (t : Fin cfg0.N) (y : S1x512.Idx) :
    iblk m c 3 t y = V m c main_v0 y := by
  obtain ⟨-, -, -, -, -, -, -, -, e0, e1, -⟩ := idx_facts t
  show V m c main_v0 (((cfg0.win 3).blk t).view.emb y) = _
  have h : ((cfg0.win 3).blk t).view.emb y = y := by
    funext a; apply Fin.ext
    match a with
    | ⟨0, _⟩ => show win0_3.index t (0 : Fin 2) * 1 + 1 * (y 0).val = (y 0).val; rw [e0]; omega
    | ⟨1, _⟩ => show win0_3.index t (1 : Fin 2) * 512 + 1 * (y 1).val = (y 1).val; rw [e1]; omega
  rw [h]

/-- … of the second layer's weights, -/
theorem read_weights2 (c : Dev nD) (t : Fin cfg0.N) (y : S512x512.Idx) :
    iblk m c 4 t y = m ((c : Thread nD τ).loc main_arg3) y := by
  obtain ⟨-, -, -, -, -, -, -, -, -, -, e0, e1, -⟩ := idx_facts t
  show V m c main_arg3 (((cfg0.win 4).blk t).view.emb y) = _
  rw [V_main_arg3]
  have h : ((cfg0.win 4).blk t).view.emb y = y := by
    funext a; apply Fin.ext
    match a with
    | ⟨0, _⟩ => show win0_4.index t (0 : Fin 2) * 512 + 1 * (y 0).val = (y 0).val; rw [e0]; omega
    | ⟨1, _⟩ => show win0_4.index t (1 : Fin 2) * 512 + 1 * (y 1).val = (y 1).val; rw [e1]; omega
  rw [h]

/-- … of the second bias row, -/
theorem read_bias2 (c : Dev nD) (t : Fin cfg0.N) (y : S1x512.Idx) :
    iblk m c 5 t y = V m c main_v1 y := by
  obtain ⟨-, -, -, -, -, -, -, -, -, -, -, -, e0, e1, -⟩ := idx_facts t
  show V m c main_v1 (((cfg0.win 5).blk t).view.emb y) = _
  have h : ((cfg0.win 5).blk t).view.emb y = y := by
    funext a; apply Fin.ext
    match a with
    | ⟨0, _⟩ => show win0_5.index t (0 : Fin 2) * 1 + 1 * (y 0).val = (y 0).val; rw [e0]; omega
    | ⟨1, _⟩ => show win0_5.index t (1 : Fin 2) * 512 + 1 * (y 1).val = (y 1).val; rw [e1]; omega
  rw [h]

/-- … and of the gain column. -/
theorem read_gainT (c : Dev nD) (t : Fin cfg0.N) (y : S2x1.Idx) :
    iblk m c 6 t y = V m c main_v3 y := by
  obtain ⟨-, -, -, -, -, -, -, -, -, -, -, -, -, -, e0, e1⟩ := idx_facts t
  show V m c main_v3 (((cfg0.win 6).blk t).view.emb y) = _
  have h : ((cfg0.win 6).blk t).view.emb y = y := by
    funext a; apply Fin.ext
    match a with
    | ⟨0, _⟩ => show win0_6.index t (0 : Fin 2) * 2 + 1 * (y 0).val = (y 0).val; rw [e0]; omega
    | ⟨1, _⟩ => show win0_6.index t (1 : Fin 2) * 1 + 1 * (y 1).val = (y 1).val; rw [e1]; omega
  rw [h]

/-! ## The blocks as the specification's arguments -/

section Args

variable (c : Dev nD) (t : Fin cfg0.N)

theorem states_row (p : Fin 2048) :
    (fun k : Fin 2 => iblk m c 0 t (ix2 p k)) = rowOf (m ((c : Thread nD τ).loc main_arg0)) (rowIdx t p) :=
  funext fun k => read_states m c t p k

theorem weights1_eq :
    (fun (j : Fin 512) (k : Fin 2) => iblk m c 2 t (ix2 k j)) = mat1 (m ((c : Thread nD τ).loc main_arg1)) :=
  funext fun j => funext fun k => by
    rw [read_weights1T, V_weights1T]
    exact transpose_ix2_apply _ _ k j

theorem bias1_eq :
    (fun j : Fin 512 => iblk m c 3 t (ix2 (0 : Fin 1) j)) = vec (m ((c : Thread nD τ).loc main_arg2)) :=
  funext fun j => by
    rw [read_bias1, V_bias1]
    exact shapeCast_a_1a_apply _ _ 0 j

theorem weights2_eq :
    (fun (j : Fin 512) (k : Fin 512) => iblk m c 4 t (ix2 j k)) = mat2 (m ((c : Thread nD τ).loc main_arg3)) :=
  funext fun j => funext fun k => read_weights2 m c t (ix2 j k)

theorem bias2_eq :
    (fun j : Fin 512 => iblk m c 5 t (ix2 (0 : Fin 1) j)) = vec (m ((c : Thread nD τ).loc main_arg4)) :=
  funext fun j => by
    rw [read_bias2, V_bias2]
    exact shapeCast_a_1a_apply _ _ 0 j

theorem gain_eq :
    (fun k : Fin 2 => iblk m c 6 t (ix2 k (0 : Fin 1))) = gain (m ((c : Thread nD τ).loc main_arg5)) :=
  funext fun k => by
    rw [read_gainT, V_gainT]
    exact transpose_ix2_apply _ _ k 0

/-- The two copies of the first layer's weights a point is handed are transposes of each other. -/
theorem weights1_transposed (k : Fin 512) (d : Fin 2) : iblk m c 1 t (ix2 k d) = iblk m c 2 t (ix2 d k) := by
  rw [read_weights1, read_weights1T, V_weights1T]
  exact (transpose_ix2_apply _ _ d k).symm

end Args

/-! ## What a point writes back, and the array after the region -/

theorem hz : (![0, 0] : Fin 2 → Nat) = fun _ => 0 := funext fun a => by fin_cases a <;> rfl

/-- Entry `(p, q)` of point `t`'s output block sits at row `2048 t + p`, column `q` of the array. -/
theorem out_index (t : Fin cfg0.N) (p : Fin 2048) (q : Fin 4) :
    ((cfg0.win 7).blk t).view.emb (ix2 p q) = ix2 (rowIdx t p) q := by
  obtain ⟨-, -, e0, e1, -⟩ := idx_facts t
  funext a; apply Fin.ext
  match a with
  | ⟨0, _⟩ => show win0_7.index t (0 : Fin 2) * 2048 + 1 * p.val = t.val * 2048 + p.val; rw [e0]; omega
  | ⟨1, _⟩ => show win0_7.index t (1 : Fin 2) * 4 + 1 * q.val = q.val; rw [e1]; omega

/-- WHAT POINT `t` WRITES BACK is its block of rows of the packed results of the whole batch. -/
theorem flushed_eq (c : Dev nD) (t : Fin cfg0.N) :
    (dats m 0 c).flushed 7 t = ((cfg0.win 7).blk t).view.read (Elt Ideal)
      (packed (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))) := by
  show (cfg0.win 7).cut (grid0.coords t) ((dats m 0 c).after 7 t) = _
  rw [after0_7]
  unfold out0_7
  rw [View.canon_unit_zero hz]
  simp only [View.ld_unit_zero (S := S2048x2) hz, View.ld_unit_zero (S := S512x2) hz, View.ld_unit_zero (S := S2x512) hz,
    View.ld_unit_zero (S := S1x512) hz, View.ld_unit_zero (S := S512x512) hz, View.ld_unit_zero (S := S2x1) hz]
  funext j
  obtain ⟨p, q, rfl⟩ : ∃ (p : Fin 2048) (q : Fin 4), j = ix2 p q := ⟨j 0, j 1, eq_ix2 (n0 := 2048) (n1 := 4) j⟩
  refine (Cert.Clf.Kernel.block_results (iblk m c 0 t) (iblk m c 1 t) (iblk m c 2 t) (iblk m c 3 t) (iblk m c 4 t)
    (iblk m c 5 t) (iblk m c 6 t) (weights1_transposed m c t) p q).trans ?_
  rw [states_row, weights1_eq, bias1_eq, weights2_eq, bias2_eq, gain_eq]
  show _ = packed (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (((cfg0.win 7).blk t).view.emb (ix2 p q))
  rw [out_index]
  rfl

/-- An index of the array is in point `t`'s block iff each coordinate is in the block's range on its axis. -/
theorem mem_blk (t : Fin cfg0.N) (i : S65536x4.Idx) :
    i ∈ ((cfg0.win 7).blk t).view.set ↔ ∀ a : Fin 2, win0_7.index t a * S2048x4.size a ≤ (i a).val
      ∧ (i a).val < win0_7.index t a * S2048x4.size a + S2048x4.size a := by
  show i ∈ ((View.whole main_v4).slice (win0_7.rect t)).set ↔ _
  rw [View.set_slice_whole, Rect.mem_set_unit]
  exact Iff.rfl

/-- The 32 blocks tile the array: row `r` is in the block of point `r / 2048`. -/
theorem cover (i : S65536x4.Idx) :
    ∃ t : Fin cfg0.N, (cfg0.win 7).flush t = true ∧ i ∈ ((cfg0.win 7).blk t).view.set := by
  have hi0 : (i 0).val < 65536 := (i 0).isLt
  have hi1 : (i 1).val < 4 := (i 1).isLt
  obtain ⟨t, ht⟩ := idx_onto ⟨(i 0).val / 2048, by omega⟩
  have q0 : win0_7.index t (0 : Fin 2) = (i 0).val / 2048 := congrFun ht 0
  have q1 : win0_7.index t (1 : Fin 2) = 0 := congrFun ht 1
  refine ⟨t, flush0_7 t, ?_⟩
  rw [mem_blk]
  intro a
  match a with
  | ⟨0, _⟩ =>
    show win0_7.index t (0 : Fin 2) * 2048 ≤ (i 0).val ∧ (i 0).val < win0_7.index t (0 : Fin 2) * 2048 + 2048
    omega
  | ⟨1, _⟩ =>
    show win0_7.index t (1 : Fin 2) * 4 ≤ (i 1).val ∧ (i 1).val < win0_7.index t (1 : Fin 2) * 4 + 4
    omega

/-- THE ARRAY AFTER THE REGION: the four results of every state of the batch, side by side. -/
theorem final (c : Dev nD) :
    (dats m 0 c).arrAt 7 cfg0.N
      = packed (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) :=
  (dats m 0 c).arrAt_eq_of_cover 7 _ (fun t _ => flushed_eq m c t) cover

end Cert.Clf.KernelArray

end
-- ==== Proof.KernelRun.lean ====
/-
  What the program returns, read off the packed array. The region writes ONE array of shape `[65536, 4]` whose row `i`
  holds the four results `u, r, V, V̇` of state `i` side by side. The lines after the region cut it along its columns:
  column `q` as a one-column array reads, at `(i, 0)`, the packed array at `(i, q)`; the candidate's column is then
  flattened, and the vector reads at `i` the column at `(i, 0)`, the row-major position `i · 1 + 0 = i` being the same
  on both sides. So the first, second and fourth results are the columns `0, 1, 3` of the packed array and the third is
  its column `2` as a vector; none of these lines writes an argument array, and the region only reads them, so the six
  arguments end as they were found.
-/
import proofs.«145592_j2001454760659_2_alg».proof.Proof.SpecArrays
import proofs.«145592_j2001454760659_2_alg».proof.Proof.Gen.KernelIdeal.Frame
import Idealize.ShloMosaic.Lib.Pipeline.Value
import Idealize.ShloMosaic.Lib.ValueLayout
import Idealize.ShloMosaic.Lib.StableHlo.Run

set_option maxRecDepth 16384

noncomputable section

namespace Cert.Clf.KernelRun

open Cert.KernelIdeal Cert.KernelIdeal.Gen Idealize.ShloMosaic Idealize.ShloMosaic.TcCoe Idealize.ShloMosaic.ValueIdx Idealize.SL.Sem

/-- Column `q` of a four-column array, cut out as a one-column array, reads at `(i, u)` the array at `(i, q)`. -/
theorem column_read (o : Nat) (X : (⟨2, ![65536, 4]⟩ : Shape).Idx → EReal)
    (h : (⟨2, ![65536, 4]⟩ : Shape).Slices ![0, o] ⟨2, ![65536, 1]⟩) (i : Fin 65536) (u : Fin 1) (q : Fin 4)
    (hq : q.val = o) :
    extractStridedSlice ⟨2, ![65536, 1]⟩ ![0, o] X h (ix2 i u) = X (ix2 i q) :=
  slice2_axis1_apply o X h i u q (by have := u.isLt; omega)

/-- A one-column array flattened to a vector reads at `i` the column at `(i, 0)`. -/
theorem flatten_read (Y : (⟨2, ![65536, 1]⟩ : Shape).Idx → EReal)
    (h : (⟨2, ![65536, 1]⟩ : Shape).ShapeCasts ⟨1, ![65536]⟩) (i : Fin 65536) :
    shapeCast ⟨1, ![65536]⟩ Y h (ix1 i) = Y (ix2 i (0 : Fin 1)) :=
  shapeCast_apply Y h (ix1 i) (ix2 i (0 : Fin 1)) (by
    rw [Shape.rowMajor_val_two, Shape.rowMajor_val_one]
    show i.val * 1 + 0 = i.val
    omega)

section Tail

variable (hfinal : ∀ (m : (ℓ : Loc nD τ sig) → Buf (Elt Ideal) ℓ) (c : Dev nD),
    (dats m 0 c).arrAt 7 cfg0.N = Cert.Clf.packed (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))
  (m : (ℓ : Loc nD τ sig) → Buf (Elt Ideal) ℓ) (c : Dev nD)

include hfinal

/-- When the lines after the region start, the region's output array holds the packed results. -/
theorem packed_at :
    Pipeline.withArrays (cfgs 0).spec c (V0 m c) (fun w => (dats m 0 c).arrAt w (cfgs 0).N) (Proc.devRef .tc main_v4)
      = Cert.Clf.packed (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (Pipeline.withArrays_arr spec0 launch0.win.arr_inj c _ _ 7).trans (hfinal m c)

/-- The first result is column 0 of the packed array: the input `u` of every state. -/
theorem tail_v5 :
    Pipeline.afterTail₀ cfgs (dats m) 0 (V0 m) [hostOps1] c main_v5 = Cert.Clf.column (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) 0 := by
  unfold Pipeline.afterTail₀
  show StableHlo.after hostOps1 _ (Proc.devRef .tc main_v5) = _
  after_results
  refine (congrArg (fun X => extractStridedSlice S65536x1 ![0, 0] X Facts₀.slices_S65536x4_S65536x1_0_0)
    (packed_at hfinal m c)).trans ?_
  funext j
  obtain ⟨i, u, rfl⟩ : ∃ (i : Fin 65536) (u : Fin 1), j = ix2 i u := ⟨j 0, j 1, eq_ix2 j⟩
  exact column_read 0 _ _ i u 0 rfl

/-- The second result is column 1 of the packed array: the relaxation `r` of every state. -/
theorem tail_v6 :
    Pipeline.afterTail₀ cfgs (dats m) 0 (V0 m) [hostOps1] c main_v6 = Cert.Clf.column (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) 1 := by
  unfold Pipeline.afterTail₀
  show StableHlo.after hostOps1 _ (Proc.devRef .tc main_v6) = _
  after_results
  refine (congrArg (fun X => extractStridedSlice S65536x1 ![0, 1] X Facts₀.slices_S65536x4_S65536x1_0_1)
    (packed_at hfinal m c)).trans ?_
  funext j
  obtain ⟨i, u, rfl⟩ : ∃ (i : Fin 65536) (u : Fin 1), j = ix2 i u := ⟨j 0, j 1, eq_ix2 j⟩
  exact column_read 1 _ _ i u 1 rfl

/-- The third result is column 2 of the packed array flattened to a vector: the candidate `V` of every state. -/
theorem tail_v8 :
    Pipeline.afterTail₀ cfgs (dats m) 0 (V0 m) [hostOps1] c main_v8 = Cert.Clf.vector (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) 2 := by
  unfold Pipeline.afterTail₀
  show StableHlo.after hostOps1 _ (Proc.devRef .tc main_v8) = _
  after_results
  refine (congrArg (fun (X : (⟨2, ![65536, 4]⟩ : Shape).Idx → EReal) (i : (⟨1, ![65536]⟩ : Shape).Idx) =>
      shapeCast S65536 (extractStridedSlice S65536x1 ![0, 2] X Facts₀.slices_S65536x4_S65536x1_0_2)
        Facts₀.shapeCasts_S65536x1_S65536 i)
    (packed_at hfinal m c)).trans ?_
  funext j
  obtain ⟨i, rfl⟩ : ∃ i : Fin 65536, j = ix1 i := ⟨j 0, eq_ix1 j⟩
  exact (flatten_read _ _ i).trans (column_read 2 _ _ i 0 2 rfl)

/-- The fourth result is column 3 of the packed array: `V̇` of every state. -/
theorem tail_v9 :
    Pipeline.afterTail₀ cfgs (dats m) 0 (V0 m) [hostOps1] c main_v9 = Cert.Clf.column (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) 3 := by
  unfold Pipeline.afterTail₀
  show StableHlo.after hostOps1 _ (Proc.devRef .tc main_v9) = _
  after_results
  refine (congrArg (fun X => extractStridedSlice S65536x1 ![0, 3] X Facts₀.slices_S65536x4_S65536x1_0_3)
    (packed_at hfinal m c)).trans ?_
  funext j
  obtain ⟨i, u, rfl⟩ : ∃ (i : Fin 65536) (u : Fin 1), j = ix2 i u := ⟨j 0, j 1, eq_ix2 j⟩
  exact column_read 3 _ _ i u 3 rfl

end Tail

/-- From any memory, the program runs to the end with its four results the four columns of the packed array — as three
    one-column arrays and, for the candidate, a vector — and its six argument arrays as it found them, provided the
    region leaves the packed results in its output array. -/
theorem run
    (hfinal : ∀ (m : (ℓ : Loc nD τ sig) → Buf (Elt Ideal) ℓ) (c : Dev nD),
      (dats m 0 c).arrAt 7 cfg0.N = Cert.Clf.packed (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))
    (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v5) = Cert.Clf.column (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) 0
      ∧ r.2.mem ((c.tc : Thread nD τ).loc main_v6) = Cert.Clf.column (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) 1
      ∧ r.2.mem ((c.tc : Thread nD τ).loc main_v8) = Cert.Clf.vector (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) 2
      ∧ r.2.mem ((c.tc : Thread nD τ).loc main_v9) = Cert.Clf.column (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) 3
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v5 (Pipeline.mem_restRefs_of main_v5 (by decide) (by decide))).trans (tail_v5 hfinal m c),
      ((h c).2 main_v6 (Pipeline.mem_restRefs_of main_v6 (by decide) (by decide))).trans (tail_v6 hfinal m c),
      ((h c).2 main_v8 (Pipeline.mem_restRefs_of main_v8 (by decide) (by decide))).trans (tail_v8 hfinal m c),
      ((h c).2 main_v9 (Pipeline.mem_restRefs_of main_v9 (by decide) (by decide))).trans (tail_v9 hfinal m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 4).trans (((dats m 0 c).arrAt_in 4 rfl _).trans ((A_eq m c 4).trans (V_main_arg3 m c))),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.Clf.KernelRun

end
-- ==== Proof.RefRow.lean ====
/-
  The reference program, read one state at a time, IS the specification: each of its stages, at row `i` of the batch,
  is the quantity of the same name for the state `xr = (θ, ω)` in row `i` of `x`.

  The network. `x W1ᵀ + b1` at `(i, j)` is `Σ_k x(i,k) W1(j,k) + b1(j)` (the transpose re-indexes `W1`, the two broadcasts
  re-index `b1`), so its `tanh` is `h₁ j`; likewise `tanh (h₁ W2ᵀ + b2)` at `(i, j)` is `h₂ j`. The candidate is
  `½ Σ_k h₂ k²`, the host's sum being its initial value, the zero word, plus the finite sum. Backwards, `h₂ ∘ (1 - h₂²)`
  at `(i, k)` is `∂V/∂(pre-activation of layer 2)`; contracted against `W2` (not its transpose: `Σ_k · W2(k,j)`) and
  multiplied by `1 - h₁ j²` it is `∂V/∂(pre-activation of layer 1)`; contracted against `W1` it is `(∇V) c`.

  The drift. Column 1 of `x` is `ω` and column 0 is `θ` (a slice, a flattening of the unit axis and a broadcast back to
  a column re-index `x`), so the second drift component is `a sin θ - d ω`. The drift `f` is the two columns joined
  along the state axis: entry 0 comes from the first piece, entry 1 from the second.

  The programme. `L_f V` is the two-term sum `(∇V)₀ f₀ + (∇V)₁ f₁`; `L_g V` is `(∇V)₁ / I`; the nominal input is
  `-(Σ_k x(i,k) K(0,k))`. Every later sum runs over the single input, an axis of extent one, and is its one term. So
  the constraint's value is `L_f V + L_g V u₀ + λ V`, the denominator `L_g V² + 1/(2p)`, the multiplier their clipped
  quotient `μ`, and the results `u = u₀ - μ L_g V`, `r = μ / (2p)`, `V`, `V̇ = L_f V + L_g V u`.

  Every step is an identity of extended reals read off the operations' definitions: no constant but the zero word is
  evaluated, and no law that needs finiteness is used.
-/
import proofs.«145592_j2001454760659_2_alg».proof.Proof.SpecArrays
import proofs.«145592_j2001454760659_2_alg».proof.Proof.Gen.ReferenceIdeal.Read

noncomputable section

namespace Cert.Clf.Ref

open Idealize.ShloMosaic Idealize.ShloMosaic.ValueIdx Cert.ReferenceIdeal Cert.ReferenceIdeal.Read

variable (x0 : (⟨S65536x2, .f32⟩ : BufTy).Contents (Elt Ideal)) (x1 : (⟨S512x2, .f32⟩ : BufTy).Contents (Elt Ideal))
  (x2 : (⟨S512, .f32⟩ : BufTy).Contents (Elt Ideal)) (x3 : (⟨S512x512, .f32⟩ : BufTy).Contents (Elt Ideal))
  (x4 : (⟨S512, .f32⟩ : BufTy).Contents (Elt Ideal)) (x5 : (⟨S1x2, .f32⟩ : BufTy).Contents (Elt Ideal))

/-- First hidden layer: `tanh (x W1ᵀ + b1)` at row `i`, unit `j` is `h₁ j` of state `i`. -/
theorem v5_eq (i : Fin 65536) (j : Fin 512) :
    val_main_v5 (F := Ideal) x0 x1 x2 (ix2 i j) = hid1 (rowOf x0 i) (mat1 x1) (vec x2) j := by
  have e1 : ∀ k : Fin 2, lidx_main_v1 (ix2 i j) k = ix2 i k := fun k => funext fun a => Fin.ext (by match a with | ⟨0, _⟩ => rfl | ⟨1, _⟩ => rfl)
  have e2 : ∀ k : Fin 2, idx_main_v0 (ridx_main_v1 (ix2 i j) k) = ix2 j k := fun k => funext fun a => Fin.ext (by match a with | ⟨0, _⟩ => rfl | ⟨1, _⟩ => rfl)
  have e3 : idx_main_v2 (idx_main_v3 (ix2 i j)) = ix1 j := funext fun a => Fin.ext (by match a with | ⟨0, _⟩ => rfl)
  rw [val_main_v5_apply, val_main_v4_apply, val_main_v1_apply, val_main_v3_apply, val_main_v2_apply, e3]
  simp only [val_main_v0_apply, e1, e2, Ideal.hostUnary_tanh_def, Ideal.addf_def, hid1, rowOf, mat1, vec]

/-- Second hidden layer: `tanh (h₁ W2ᵀ + b2)` at row `i`, unit `j` is `h₂ j` of state `i`. -/
theorem v11_eq (i : Fin 65536) (j : Fin 512) :
    val_main_v11 (F := Ideal) x0 x1 x2 x3 x4 (ix2 i j) = hid2 (rowOf x0 i) (mat1 x1) (vec x2) (mat2 x3) (vec x4) j := by
  have e1 : ∀ k : Fin 512, lidx_main_v7 (ix2 i j) k = ix2 i k := fun k => funext fun a => Fin.ext (by match a with | ⟨0, _⟩ => rfl | ⟨1, _⟩ => rfl)
  have e2 : ∀ k : Fin 512, idx_main_v6 (ridx_main_v7 (ix2 i j) k) = ix2 j k := fun k => funext fun a => Fin.ext (by match a with | ⟨0, _⟩ => rfl | ⟨1, _⟩ => rfl)
  have e3 : idx_main_v8 (idx_main_v9 (ix2 i j)) = ix1 j := funext fun a => Fin.ext (by match a with | ⟨0, _⟩ => rfl)
  rw [val_main_v11_apply, val_main_v10_apply, val_main_v7_apply, val_main_v9_apply, val_main_v8_apply, e3]
  simp only [val_main_v6_apply, e1, e2, v5_eq, Ideal.hostUnary_tanh_def, Ideal.addf_def, hid2, mat2, vec]

/-- The candidate: `½ Σ_k h₂ k²`, the sum started from the zero word. -/
theorem v15_eq (i : Fin 65536) :
    val_main_v15 (F := Ideal) x0 x1 x2 x3 x4 (ix1 i) = lyap (rowOf x0 i) (mat1 x1) (vec x2) (mat2 x3) (vec x4) := by
  have e1 : ∀ k : Fin 512, idx_main_v13 (ix1 i) k = ix2 i k := fun k => funext fun a => Fin.ext (by match a with | ⟨0, _⟩ => rfl | ⟨1, _⟩ => rfl)
  rw [val_main_v15_apply, val_main_v14_apply, val_main_cst_0_apply, val_main_v13_apply, val_main_cst_apply]
  simp only [e1, val_main_v12_apply, v11_eq, Ideal.ofBits_def, Ideal.mulf_def, Ideal.ofBits_zero_f32, zero_add, lyap]

/-- `h₂ k (1 - h₂ k²)`. -/
theorem v19_eq (i : Fin 65536) (k : Fin 512) :
    val_main_v19 (F := Ideal) x0 x1 x2 x3 x4 (ix2 i k) = back2 (rowOf x0 i) (mat1 x1) (vec x2) (mat2 x3) (vec x4) k := by
  rw [val_main_v19_apply, val_main_v18_apply, val_main_v17_apply, val_main_cst_1_apply, val_main_v16_apply, v11_eq]
  simp only [Ideal.ofBits_def, Ideal.mulf_def, Ideal.subf_def, back2]

/-- `(Σ_k back2 k · W2 k j) (1 - h₁ j²)`: the contraction against `W2` itself, not its transpose. -/
theorem v24_eq (i : Fin 65536) (j : Fin 512) :
    val_main_v24 (F := Ideal) x0 x1 x2 x3 x4 (ix2 i j) = back1 (rowOf x0 i) (mat1 x1) (vec x2) (mat2 x3) (vec x4) j := by
  have e1 : ∀ k : Fin 512, lidx_main_v20 (ix2 i j) k = ix2 i k := fun k => funext fun a => Fin.ext (by match a with | ⟨0, _⟩ => rfl | ⟨1, _⟩ => rfl)
  have e2 : ∀ k : Fin 512, ridx_main_v20 (ix2 i j) k = ix2 k j := fun k => funext fun a => Fin.ext (by match a with | ⟨0, _⟩ => rfl | ⟨1, _⟩ => rfl)
  rw [val_main_v24_apply, val_main_v20_apply, val_main_v23_apply, val_main_v22_apply, val_main_cst_2_apply,
    val_main_v21_apply, v5_eq]
  simp only [e1, e2, v19_eq, Ideal.ofBits_def, Ideal.mulf_def, Ideal.subf_def, back1, mat2]

/-- The gradient in the state: `Σ_k back1 k · W1 k c`. -/
theorem v25_eq (i : Fin 65536) (c : Fin 2) :
    val_main_v25 (F := Ideal) x0 x1 x2 x3 x4 (ix2 i c) = grad (rowOf x0 i) (mat1 x1) (vec x2) (mat2 x3) (vec x4) c := by
  have e1 : ∀ k : Fin 512, lidx_main_v25 (ix2 i c) k = ix2 i k := fun k => funext fun a => Fin.ext (by match a with | ⟨0, _⟩ => rfl | ⟨1, _⟩ => rfl)
  have e2 : ∀ k : Fin 512, ridx_main_v25 (ix2 i c) k = ix2 k c := fun k => funext fun a => Fin.ext (by match a with | ⟨0, _⟩ => rfl | ⟨1, _⟩ => rfl)
  rw [val_main_v25_apply]
  simp only [e1, e2, v24_eq, grad, mat1]

/-- The angular velocity `ω` of state `i`: column 1 of the states, sliced, flattened and made a column again. -/
theorem v38_eq (i : Fin 65536) (u : Fin 1) :
    val_main_v38 (F := Ideal) x0 (ix2 i u) = x0 (ix2 i (1 : Fin 2)) := by
  have e : idx_main_v26 (idx_main_v27 (idx_main_v38 (ix2 i u))) = ix2 i (1 : Fin 2) :=
    funext fun a => Fin.ext (by match a with | ⟨0, _⟩ => exact Nat.div_one _ | ⟨1, _⟩ => rfl)
  rw [val_main_v38_apply, val_main_v27_apply, val_main_v26_apply, e]

/-- The second drift component `a sin θ - d ω` of state `i`. -/
theorem v37_eq (i : Fin 65536) :
    val_main_v37 (F := Ideal) x0 (ix1 i) = drift1 (rowOf x0 i) := by
  have e0 : idx_main_v28 (idx_main_v29 (ix1 i)) = ix2 i (0 : Fin 2) :=
    funext fun a => Fin.ext (by match a with | ⟨0, _⟩ => exact Nat.div_one _ | ⟨1, _⟩ => rfl)
  have e1 : idx_main_v33 (idx_main_v34 (ix1 i)) = ix2 i (1 : Fin 2) :=
    funext fun a => Fin.ext (by match a with | ⟨0, _⟩ => exact Nat.div_one _ | ⟨1, _⟩ => rfl)
  rw [val_main_v37_apply, val_main_v32_apply, val_main_v31_apply, val_main_cst_3_apply, val_main_v30_apply,
    val_main_v29_apply, val_main_v28_apply, e0, val_main_v36_apply, val_main_v35_apply, val_main_cst_4_apply,
    val_main_v34_apply, val_main_v33_apply, e1]
  simp only [Ideal.ofBits_def, Ideal.mulf_def, Ideal.subf_def, Ideal.hostUnary_sin_def, drift1, rowOf]

/-- The same, as a column. -/
theorem v39_eq (i : Fin 65536) (u : Fin 1) :
    val_main_v39 (F := Ideal) x0 (ix2 i u) = drift1 (rowOf x0 i) := by
  have e : idx_main_v39 (ix2 i u) = ix1 i := funext fun a => Fin.ext (by match a with | ⟨0, _⟩ => rfl)
  rw [val_main_v39_apply, e, v37_eq]

/-- The drift `f`, the two columns side by side: its entry 0 is the first piece's, `ω`. -/
theorem v40_eq0 (i : Fin 65536) :
    val_main_v40 (F := Ideal) x0 (ix2 i (0 : Fin 2)) = x0 (ix2 i (1 : Fin 2)) := by
  unfold val_main_v40
  refine (concatenate_pair_apply_left _ (val_main_v38 (F := Ideal) x0) (val_main_v39 (F := Ideal) x0)
    Facts₀.concatenates_S65536x1_S65536x1_S65536x2_d1 (ix2 i (0 : Fin 2)) rfl (ix2 i (0 : Fin 1)) ?_).trans (v38_eq x0 i 0)
  intro b
  match b with
  | ⟨0, _⟩ => rfl
  | ⟨1, _⟩ => rfl

/-- Its entry 1 is the second piece's, `a sin θ - d ω`. -/
theorem v40_eq1 (i : Fin 65536) :
    val_main_v40 (F := Ideal) x0 (ix2 i (1 : Fin 2)) = drift1 (rowOf x0 i) := by
  unfold val_main_v40
  refine (concatenate_pair_apply_right _ (val_main_v38 (F := Ideal) x0) (val_main_v39 (F := Ideal) x0)
    Facts₀.concatenates_S65536x1_S65536x1_S65536x2_d1 (ix2 i (1 : Fin 2)) rfl rfl (ix2 i (0 : Fin 1)) ?_ ?_).trans (v39_eq x0 i 0)
  · intro b hb
    match b, hb with
    | ⟨0, _⟩, _ => rfl
    | ⟨1, _⟩, hb => exact absurd rfl hb
  · rfl

/-- `L_f V = (∇V)₀ ω + (∇V)₁ (a sin θ - d ω)`: the two-term sum along the state axis, started from the zero word. -/
theorem v43_eq (i : Fin 65536) (u : Fin 1) :
    val_main_v43 (F := Ideal) x0 x1 x2 x3 x4 (ix2 i u) = lieF (rowOf x0 i) (grad (rowOf x0 i) (mat1 x1) (vec x2) (mat2 x3) (vec x4)) := by
  have e0 : idx_main_v43 (ix2 i u) = ix1 i := funext fun a => Fin.ext (by match a with | ⟨0, _⟩ => rfl)
  have e1 : ∀ k : Fin 2, idx_main_v42 (ix1 i) k = ix2 i k := fun k => funext fun a => Fin.ext (by match a with | ⟨0, _⟩ => rfl | ⟨1, _⟩ => rfl)
  rw [val_main_v43_apply, e0, val_main_v42_apply, val_main_cst_5_apply, Fin.sum_univ_two, e1, e1,
    val_main_v41_apply, val_main_v41_apply, v25_eq, v25_eq, v40_eq0, v40_eq1]
  simp only [Ideal.ofBits_def, Ideal.ofBits_zero_f32, zero_add, Ideal.mulf_def, lieF, rowOf]

/-- `L_g V = (∇V)₁ / I`. -/
theorem v46_eq (i : Fin 65536) (u : Fin 1) :
    val_main_v46 (F := Ideal) x0 x1 x2 x3 x4 (ix2 i u) = lieG (grad (rowOf x0 i) (mat1 x1) (vec x2) (mat2 x3) (vec x4)) := by
  have e : idx_main_v44 (ix2 i u) = ix2 i (1 : Fin 2) :=
    funext fun a => Fin.ext (by
      match a with
      | ⟨0, _⟩ => rfl
      | ⟨1, _⟩ => show 1 + u.val = 1; have := u.isLt; omega)
  rw [val_main_v46_apply, val_main_v44_apply, e, v25_eq, val_main_v45_apply, val_main_cst_6_apply]
  simp only [Ideal.ofBits_def, Ideal.hostDivf_def, lieG]

/-- The nominal input `u₀ = -(x Kᵀ)`. -/
theorem v49_eq (i : Fin 65536) (u : Fin 1) :
    val_main_v49 (F := Ideal) x0 x5 (ix2 i u) = nominal (rowOf x0 i) (gain x5) := by
  have e1 : ∀ k : Fin 2, lidx_main_v48 (ix2 i u) k = ix2 i k := fun k => funext fun a => Fin.ext (by match a with | ⟨0, _⟩ => rfl | ⟨1, _⟩ => rfl)
  have e2 : ∀ k : Fin 2, idx_main_v47 (ridx_main_v48 (ix2 i u) k) = ix2 (0 : Fin 1) k := fun k =>
    funext fun a => Fin.ext (by
      match a with
      | ⟨0, _⟩ => show u.val = 0; have := u.isLt; omega
      | ⟨1, _⟩ => rfl)
  rw [val_main_v49_apply, val_main_v48_apply]
  simp only [val_main_v47_apply, e1, e2, Ideal.hostNegf_def, Ideal.negf_def, nominal, rowOf, gain]

/-- The constraint's value `L_f V + L_g V u₀ + λ V`; the sum over the one input is its single term. -/
theorem v57_eq (i : Fin 65536) (u : Fin 1) :
    val_main_v57 (F := Ideal) x0 x1 x2 x3 x4 x5 (ix2 i u) =
      (lieF (rowOf x0 i) (grad (rowOf x0 i) (mat1 x1) (vec x2) (mat2 x3) (vec x4)) + lieG (grad (rowOf x0 i) (mat1 x1) (vec x2) (mat2 x3) (vec x4)) * nominal (rowOf x0 i) (gain x5)) + cOne * lyap (rowOf x0 i) (mat1 x1) (vec x2) (mat2 x3) (vec x4) := by
  have e0 : idx_main_v52 (ix2 i u) = ix1 i := funext fun a => Fin.ext (by match a with | ⟨0, _⟩ => rfl)
  have e1 : idx_main_v51 (ix1 i) (0 : Fin 1) = ix2 i (0 : Fin 1) := funext fun a => Fin.ext (by match a with | ⟨0, _⟩ => rfl | ⟨1, _⟩ => rfl)
  have e2 : idx_main_v54 (ix2 i u) = ix1 i := funext fun a => Fin.ext (by match a with | ⟨0, _⟩ => rfl)
  rw [val_main_v57_apply, val_main_v53_apply, v43_eq, val_main_v52_apply, e0, val_main_v51_apply,
    val_main_cst_7_apply, Fin.sum_univ_one, e1, val_main_v50_apply, v46_eq, v49_eq, val_main_v56_apply,
    val_main_v55_apply, val_main_cst_8_apply, val_main_v54_apply, e2, v15_eq]
  simp only [Ideal.ofBits_def, Ideal.ofBits_zero_f32, zero_add, Ideal.mulf_def, Ideal.addf_def]

/-- The multiplier's denominator `L_g V² + 1/(2p)`. -/
theorem v62_eq (i : Fin 65536) (u : Fin 1) :
    val_main_v62 (F := Ideal) x0 x1 x2 x3 x4 (ix2 i u) = lieG (grad (rowOf x0 i) (mat1 x1) (vec x2) (mat2 x3) (vec x4)) * lieG (grad (rowOf x0 i) (mat1 x1) (vec x2) (mat2 x3) (vec x4)) + cRelax := by
  have e0 : idx_main_v60 (ix2 i u) = ix1 i := funext fun a => Fin.ext (by match a with | ⟨0, _⟩ => rfl)
  have e1 : idx_main_v59 (ix1 i) (0 : Fin 1) = ix2 i (0 : Fin 1) := funext fun a => Fin.ext (by match a with | ⟨0, _⟩ => rfl | ⟨1, _⟩ => rfl)
  rw [val_main_v62_apply, val_main_v60_apply, e0, val_main_v59_apply, val_main_cst_9_apply, Fin.sum_univ_one, e1,
    val_main_v58_apply, v46_eq, val_main_v61_apply, val_main_cst_10_apply]
  simp only [Ideal.ofBits_def, Ideal.ofBits_zero_f32, zero_add, Ideal.mulf_def, Ideal.addf_def]

/-- The multiplier `μ = max (L_f V + L_g V u₀ + λ V, 0) / (L_g V² + 1/(2p))`. -/
theorem v65_eq (i : Fin 65536) (u : Fin 1) :
    val_main_v65 (F := Ideal) x0 x1 x2 x3 x4 x5 (ix2 i u) = mult (rowOf x0 i) (gain x5) (grad (rowOf x0 i) (mat1 x1) (vec x2) (mat2 x3) (vec x4)) (lyap (rowOf x0 i) (mat1 x1) (vec x2) (mat2 x3) (vec x4)) := by
  rw [val_main_v65_apply, val_main_v64_apply, v57_eq, val_main_v63_apply, val_main_cst_11_apply, v62_eq]
  simp only [Ideal.ofBits_def, Ideal.ofBits_zero_f32, Ideal.maximumf_def, Ideal.hostDivf_def, mult]

/-- The input `u = u₀ - μ L_g V`. -/
theorem v67_eq (i : Fin 65536) (u : Fin 1) :
    val_main_v67 (F := Ideal) x0 x1 x2 x3 x4 x5 (ix2 i u) = ctrl (rowOf x0 i) (gain x5) (grad (rowOf x0 i) (mat1 x1) (vec x2) (mat2 x3) (vec x4)) (lyap (rowOf x0 i) (mat1 x1) (vec x2) (mat2 x3) (vec x4)) := by
  rw [val_main_v67_apply, v49_eq, val_main_v66_apply, v65_eq, v46_eq]
  simp only [Ideal.mulf_def, Ideal.subf_def, ctrl]

/-- The relaxation `r = μ / (2p)`. -/
theorem v69_eq (i : Fin 65536) (u : Fin 1) :
    val_main_v69 (F := Ideal) x0 x1 x2 x3 x4 x5 (ix2 i u) = relax (rowOf x0 i) (gain x5) (grad (rowOf x0 i) (mat1 x1) (vec x2) (mat2 x3) (vec x4)) (lyap (rowOf x0 i) (mat1 x1) (vec x2) (mat2 x3) (vec x4)) := by
  rw [val_main_v69_apply, v65_eq, val_main_v68_apply, val_main_cst_12_apply]
  simp only [Ideal.ofBits_def, Ideal.hostDivf_def, relax]

/-- `V̇ = L_f V + L_g V u`; the sum over the one input is its single term. -/
theorem v73_eq (i : Fin 65536) (u : Fin 1) :
    val_main_v73 (F := Ideal) x0 x1 x2 x3 x4 x5 (ix2 i u) = lyapDot (rowOf x0 i) (gain x5) (grad (rowOf x0 i) (mat1 x1) (vec x2) (mat2 x3) (vec x4)) (lyap (rowOf x0 i) (mat1 x1) (vec x2) (mat2 x3) (vec x4)) := by
  have e0 : idx_main_v72 (ix2 i u) = ix1 i := funext fun a => Fin.ext (by match a with | ⟨0, _⟩ => rfl)
  have e1 : idx_main_v71 (ix1 i) (0 : Fin 1) = ix2 i (0 : Fin 1) := funext fun a => Fin.ext (by match a with | ⟨0, _⟩ => rfl | ⟨1, _⟩ => rfl)
  rw [val_main_v73_apply, v43_eq, val_main_v72_apply, e0, val_main_v71_apply, val_main_cst_13_apply,
    Fin.sum_univ_one, e1, val_main_v70_apply, v46_eq, v67_eq]
  simp only [Ideal.ofBits_def, Ideal.ofBits_zero_f32, zero_add, Ideal.mulf_def, Ideal.addf_def, lyapDot]

/-- The reference's first result at state `i` is the specification's input `u`. -/
theorem ref_ctrl (i : Fin 65536) (u : Fin 1) :
    Cert.ReferenceIdeal.Read.val_main_v67 (F := Ideal) x0 x1 x2 x3 x4 x5 (ValueIdx.ix2 i u) =
      Cert.Clf.resultsAt x0 x1 x2 x3 x4 x5 i 0 :=
  v67_eq x0 x1 x2 x3 x4 x5 i u

/-- The reference's second result at state `i` is the specification's relaxation `r`. -/
theorem ref_relax (i : Fin 65536) (u : Fin 1) :
    Cert.ReferenceIdeal.Read.val_main_v69 (F := Ideal) x0 x1 x2 x3 x4 x5 (ValueIdx.ix2 i u) =
      Cert.Clf.resultsAt x0 x1 x2 x3 x4 x5 i 1 :=
  v69_eq x0 x1 x2 x3 x4 x5 i u

/-- The reference's third result at state `i` is the specification's candidate `V`. -/
theorem ref_lyap (i : Fin 65536) :
    Cert.ReferenceIdeal.Read.val_main_v15 (F := Ideal) x0 x1 x2 x3 x4 (ValueIdx.ix1 i) =
      Cert.Clf.resultsAt x0 x1 x2 x3 x4 x5 i 2 :=
  v15_eq x0 x1 x2 x3 x4 i

/-- The reference's fourth result at state `i` is the specification's `V̇`. -/
theorem ref_lyapDot (i : Fin 65536) (u : Fin 1) :
    Cert.ReferenceIdeal.Read.val_main_v73 (F := Ideal) x0 x1 x2 x3 x4 x5 (ValueIdx.ix2 i u) =
      Cert.Clf.resultsAt x0 x1 x2 x3 x4 x5 i 3 :=
  v73_eq x0 x1 x2 x3 x4 x5 i u

end Cert.Clf.Ref

end
-- ==== Proof.lean ====
/-
  The certificate of a closed-form CLF-QP controller evaluated on a batch of 65536 pendulum states.

  Both programs compute, for every state `xr = (θ, ω)` of the batch, the same four quantities (Proof/Spec.lean): the
  Lyapunov candidate `V = ½ ‖tanh (W2 tanh (W1 xr + b1) + b2)‖²` of a two-layer network, its gradient by the chain rule,
  the Lie derivatives along the pendulum's drift and input direction, and the closed solution `u, r` of the quadratic
  programme with one relaxed constraint together with `V̇`. The kernel does so block by block — 32 blocks of 2048
  states, the four results packed side by side and cut apart again by the host — and the reference on the whole batch
  at once. Read at the extended reals the two are the same function, operation by operation: a matrix product into a
  zero accumulator against the host's contraction, a sum along a row against the host's sum started at zero, `0 - x`
  against `-x`, and different but equivalent layouts of the same entries. No law that needs finiteness is used, so
  the precondition is never opened.

  Proof/KernelRow.lean reads the kernel's arithmetic row by row, Proof/KernelArray.lean assembles the blocks into the
  packed array, Proof/KernelRun.lean reads the host's cuts of it off the kernel program's run, and Proof/RefRow.lean
  reads the reference state by state; here the five claims are put together.
-/
import proofs.«145592_j2001454760659_2_alg».proof.Defs
import proofs.«145592_j2001454760659_2_alg».proof.Proof.Gen.Kernel
import proofs.«145592_j2001454760659_2_alg».proof.Proof.Gen.Kernel.Skeleton
import proofs.«145592_j2001454760659_2_alg».proof.Proof.Gen.Kernel.Launch
import proofs.«145592_j2001454760659_2_alg».proof.Proof.Gen.Kernel.Points
import proofs.«145592_j2001454760659_2_alg».proof.Proof.Gen.Kernel.Frame
import proofs.«145592_j2001454760659_2_alg».proof.Proof.Gen.KernelIdeal
import proofs.«145592_j2001454760659_2_alg».proof.Proof.Gen.KernelIdeal.Skeleton
import proofs.«145592_j2001454760659_2_alg».proof.Proof.Gen.KernelIdeal.Launch
import proofs.«145592_j2001454760659_2_alg».proof.Proof.Gen.KernelIdeal.Points
import proofs.«145592_j2001454760659_2_alg».proof.Proof.Gen.KernelIdeal.Frame
import proofs.«145592_j2001454760659_2_alg».proof.Proof.Gen.ReferenceIdeal
import proofs.«145592_j2001454760659_2_alg».proof.Proof.Gen.Pre_finite_inputs
import proofs.«145592_j2001454760659_2_alg».proof.Proof.Gen.ReferenceIdeal.Run
import proofs.«145592_j2001454760659_2_alg».proof.Proof.Gen.ReferenceIdeal.Read
import proofs.«145592_j2001454760659_2_alg».proof.Proof.KernelArray
import proofs.«145592_j2001454760659_2_alg».proof.Proof.KernelRun
import proofs.«145592_j2001454760659_2_alg».proof.Proof.RefRow
import Idealize.ShloMosaic.Adequacy
import Idealize.ShloMosaic.Init

noncomputable section

namespace Cert.Proof

open Idealize.ShloMosaic Idealize.ShloMosaic.ValueIdx Idealize.SL.Sem

/-- The word-level kernel program runs and leaves its arguments as they were. -/
theorem frame_kernel : Cert.frame_Kernel := fun m ρ _ => Cert.Kernel.Gen.frame m ρ

/-- So does the kernel program read at the extended reals. -/
theorem frame_kernelIdeal : Cert.frame_KernelIdeal := fun m ρ _ => Cert.KernelIdeal.Gen.frame m ρ

/-- So does the reference: its run, with the results dropped. -/
theorem frame_referenceIdeal : Cert.frame_ReferenceIdeal := fun m ρ _ =>
  (θ_run Cert.ReferenceIdeal.defs _ _).mono (fun _ h c => (h c).2.2.2.2) (Cert.ReferenceIdeal.Value.run (F := Ideal) m ρ)

/-- The idealization rewrote nothing. -/
theorem preserves : Cert.preserves_Kernel_KernelIdeal := trivial

/-- From memories that agree on the six arguments both programs end with the four results of every state of the
    batch: the input `u`, the relaxation `r` and `V̇` as columns, the candidate `V` as a vector. -/
theorem algebraic : Cert.algebraic_KernelIdeal_ReferenceIdeal := by
  intro m ρ m' ρ' _ hagree
  refine ⟨_, _, _, _, Cert.Clf.KernelRun.run (fun m c => Cert.Clf.KernelArray.final m c) m ρ, ?_⟩
  refine (θ_run Cert.ReferenceIdeal.defs _ _).mono (fun _ h c => ?_) (Cert.ReferenceIdeal.Value.run (F := Ideal) m' ρ')
  obtain ⟨h0, h1, h2, h3, hargs⟩ := h c
  obtain ⟨a0, a1, a2, a3, a4, a5⟩ := hagree c
  refine ⟨?_, ?_, ?_, ?_, hargs⟩
  · refine (h0.trans (Cert.ReferenceIdeal.Read.val_main_v67_eq m' c)).trans ?_
    rw [a0, a1, a2, a3, a4, a5]
    funext j
    obtain ⟨i, u, rfl⟩ : ∃ (i : Fin 65536) (u : Fin 1), j = ix2 i u := ⟨j 0, j 1, eq_ix2 (n0 := 65536) (n1 := 1) j⟩
    exact Cert.Clf.Ref.ref_ctrl _ _ _ _ _ _ i u
  · refine (h1.trans (Cert.ReferenceIdeal.Read.val_main_v69_eq m' c)).trans ?_
    rw [a0, a1, a2, a3, a4, a5]
    funext j
    obtain ⟨i, u, rfl⟩ : ∃ (i : Fin 65536) (u : Fin 1), j = ix2 i u := ⟨j 0, j 1, eq_ix2 (n0 := 65536) (n1 := 1) j⟩
    exact Cert.Clf.Ref.ref_relax _ _ _ _ _ _ i u
  · refine (h2.trans (Cert.ReferenceIdeal.Read.val_main_v15_eq _ _ _ _ _)).trans ?_
    rw [a0, a1, a2, a3, a4]
    funext j
    obtain ⟨i, rfl⟩ : ∃ i : Fin 65536, j = ix1 i := ⟨j 0, eq_ix1 (n := 65536) j⟩
    exact Cert.Clf.Ref.ref_lyap _ _ _ _ _ _ i
  · refine (h3.trans (Cert.ReferenceIdeal.Read.val_main_v73_eq m' c)).trans ?_
    rw [a0, a1, a2, a3, a4, a5]
    funext j
    obtain ⟨i, u, rfl⟩ : ∃ (i : Fin 65536) (u : Fin 1), j = ix2 i u := ⟨j 0, j 1, eq_ix2 (n0 := 65536) (n1 := 1) j⟩
    exact Cert.Clf.Ref.ref_lyapDot _ _ _ _ _ _ i u

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
